-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x320 : Shape := ⟨2, ![131072, 320]⟩
abbrev S448x128 : Shape := ⟨2, ![448, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x320 : S_.BroadcastsInDim S131072x320 (![] : Fin 0 → Fin S131072x320.rank)
  reducesTo_S131072x320_S_d0_1 : S131072x320.ReducesTo [0, 1] S_
  bcast_S_S448x128 : S_.BroadcastsInDim S448x128 (![] : Fin 0 → Fin S448x128.rank)
  reducesTo_S448x128_S_d0_1 : S448x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x256 .f32) (main_arg7 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S131072x320 .f32) (main_arg2 : FVec F S448x128 .f32) (main_arg3 : FVec F S128 .f32) (main_arg4 : FVec F S128x128 .f32) (main_arg5 : FVec F S128 .f32) (main_arg6 : FVec F S128x256 .f32) (main_arg7 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x320 .f32 := Host.absf main_arg1
  let main_cst_0 : FVec F S_ .f32 := constant S_ .f32 0x7F800000#32
  let main_v5 : FVec F S131072x320 .f32 := broadcastInDim S131072x320 ![] bcast_S_S131072x320 main_cst_0
  let main_v6 : IVec S131072x320 1 := cmpf .olt main_v4 main_v5
  let main_c_1 : IVec S_ 1 := constantI S_ 1 1#1
  let main_v7 : IVec S_ 1 := (fun x v => Host.reduce IntOp.andi x v reducesTo_S131072x320_S_d0_1 h_S_) main_v6 main_c_1
  let main_v8 : IVec S_ 1 := andi main_v3 main_v7
  let main_v9 : FVec F S448x128 .f32 := Host.absf main_arg2
  let main_cst_2 : FVec F S_ .f32 := constant S_ .f32 0x7F800000#32
  let main_v10 : FVec F S448x128 .f32 := broadcastInDim S448x128 ![] bcast_S_S448x128 main_cst_2
  let main_v11 : IVec S448x128 1 := cmpf .olt main_v9 main_v10
  let main_c_3 : IVec S_ 1 := constantI S_ 1 1#1
  let main_v12 : IVec S_ 1 := (fun x v => Host.reduce IntOp.andi x v reducesTo_S448x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S131072x256 : Shape := ⟨2, ![131072, 256]⟩
abbrev S131072x320 : Shape := ⟨2, ![131072, 320]⟩
abbrev S448x128 : Shape := ⟨2, ![448, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S131072x128x2 : Shape := ⟨3, ![131072, 128, 2]⟩
abbrev S131072x2x128 : Shape := ⟨3, ![131072, 2, 128]⟩
abbrev S131072x1 : Shape := ⟨2, ![131072, 1]⟩
abbrev S2048x256 : Shape := ⟨2, ![2048, 256]⟩
abbrev S2048x320 : Shape := ⟨2, ![2048, 320]⟩
abbrev S2048x1 : Shape := ⟨2, ![2048, 1]⟩
abbrev S2048x128 : Shape := ⟨2, ![2048, 128]⟩
abbrev S2048x448 : Shape := ⟨2, ![2048, 448]⟩
abbrev S1x128 : Shape := ⟨2, ![1, 128]⟩
abbrev S1x256 : Shape := ⟨2, ![1, 256]⟩
abbrev S2048 : Shape := ⟨1, ![2048]⟩
abbrev S131072 : Shape := ⟨1, ![131072]⟩

abbrev nBuf : Space → Nat
  | .hbm => 17
  | .vmem => 14
  | .smem => 0
  | _ => 0

abbrev bufTy : (tb : Table) → Fin (tcTables nBuf tb) → BufTy
  | .hbm, ⟨0, _⟩ => ⟨S131072x256, .f32⟩
  | .hbm, ⟨1, _⟩ => ⟨S131072x320, .f32⟩
  | .hbm, ⟨2, _⟩ => ⟨S448x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S131072x128x2, .f32⟩
  | .hbm, ⟨9, _⟩ => ⟨S131072x2x128, .f32⟩
  | .hbm, ⟨10, _⟩ => ⟨S131072x256, .f32⟩
  | .hbm, ⟨11, _⟩ => ⟨S131072x256, .f32⟩
  | .hbm, ⟨12, _⟩ => ⟨S131072x1, .f32⟩
  | .hbm, ⟨13, _⟩ => ⟨S131072x2x128, .f32⟩
  | .hbm, ⟨14, _⟩ => ⟨S131072x128x2, .f32⟩
  | .hbm, ⟨15, _⟩ => ⟨S131072x256, .f32⟩
  | .hbm, ⟨16, _⟩ => ⟨S131072, .f32⟩
  | .local _ .vmem, ⟨0, _⟩ => ⟨S2048x256, .f32⟩
  | .local _ .vmem, ⟨1, _⟩ => ⟨S2048x256, .f32⟩
  | .local _ .vmem, ⟨2, _⟩ => ⟨S2048x320, .f32⟩
  | .local _ .vmem, ⟨3, _⟩ => ⟨S2048x320, .f32⟩
  | .local _ .vmem, ⟨4, _⟩ => ⟨S448x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S2048x256, .f32⟩
  | .local _ .vmem, ⟨11, _⟩ => ⟨S2048x256, .f32⟩
  | .local _ .vmem, ⟨12, _⟩ => ⟨S2048x1, .f32⟩
  | .local _ .vmem, ⟨13, _⟩ => ⟨S2048x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S448x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S131072x256_S131072x128x2 : S131072x256.ShapeCasts S131072x128x2
  transposes_S131072x128x2_S131072x2x128_0_2_1 : S131072x128x2.Transposes [0, 2, 1] S131072x2x128
  shapeCasts_S131072x2x128_S131072x256 : S131072x2x128.ShapeCasts S131072x256
  inb_S2048x256_S2048x128_0_0 : ∀ a, (![0, 0] : Fin 2 → Nat) a + S2048x128.size a ≤ S2048x256.size a
  h_S2048x128 : 0 < S2048x128.numel
  shapeCasts_S2048x128_S2048x128 : S2048x128.ShapeCasts S2048x128
  inb_S2048x256_S2048x128_0_128 : ∀ a, (![0, 128] : Fin 2 → Nat) a + S2048x128.size a ≤ S2048x256.size a
  inb_S2048x320_S2048x320_0_0 : ∀ a, (![0, 0] : Fin 2 → Nat) a + S2048x320.size a ≤ S2048x320.size a
  h_S2048x320 : 0 < S2048x320.numel
  concatenates_S2048x128_S2048x320_S2048x448_d1 : Shape.Concatenates [S2048x128, S2048x320] S2048x448 1
  inb_S448x128_S448x128_0_0 : ∀ a, (![0, 0] : Fin 2 → Nat) a + S448x128.size a ≤ S448x128.size a
  h_S448x128 : 0 < S448x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S131072x256_S131072x2x128 : S131072x256.ShapeCasts S131072x2x128
  transposes_S131072x2x128_S131072x128x2_0_2_1 : S131072x2x128.Transposes [0, 2, 1] S131072x128x2
  shapeCasts_S131072x128x2_S131072x256 : S131072x128x2.ShapeCasts S131072x256
  shapeCasts_S131072x1_S131072 : S131072x1.ShapeCasts S131072
  dot_S2048x448_S448x128_S2048x128_1_0_0_1_n_n_wf : DotDims.WF S2048x448 S448x128 S2048x128 [1] [0] [0] [1] [] []
  dot_S2048x128_S128x128_S2048x128_1_0_0_1_n_n_wf : DotDims.WF S2048x128 S128x128 S2048x128 [1] [0] [0] [1] [] []
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x320.size a ≤ S131072x320.size a
  hwx0_1 : ∀ i : grid0.Coords, EltTy.bits .f32 = 32 ∨ (Rect.block (s := S131072x320) S2048x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S448x128.size a ≤ S448x128.size a
  hwx0_2 : ∀ i : grid0.Coords, EltTy.bits .f32 = 32 ∨ (Rect.block (s := S448x128) S448x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S131072x256.size a
  hwx0_8 : ∀ i : grid0.Coords, EltTy.bits .f32 = 32 ∨ (Rect.block (s := S131072x256) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S131072x1.size a
  hwx0_9 : ∀ i : grid0.Coords, EltTy.bits .f32 = 32 ∨ (Rect.block (s := S131072x1) S2048x1.size (cc0_transform_9 i) (hinb0_9 i)).WholeWords (EltTy.packing .f32)

variable [Facts₀]

def dot_S2048x448_S448x128_S2048x128_1_0_0_1_n_n : DotDims S2048x448 S448x128 S2048x128 where
  lhsContracting := [1]
  rhsContracting := [0]
  lhsNonContracting := [0]
  rhsNonContracting := [1]
  lhsBatch := []
  rhsBatch := []
  wf := dot_S2048x448_S448x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v2) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S448x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S2048x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x320 : Shape := ⟨2, ![131072, 320]⟩
abbrev S448x128 : Shape := ⟨2, ![448, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩
abbrev S128x1 : Shape := ⟨2, ![128, 1]⟩
abbrev S131072x128 : Shape := ⟨2, ![131072, 128]⟩
abbrev S131072x448 : Shape := ⟨2, ![131072, 448]⟩
abbrev S1x128 : Shape := ⟨2, ![1, 128]⟩
abbrev S1x256 : Shape := ⟨2, ![1, 256]⟩
abbrev S131072 : Shape := ⟨1, ![131072]⟩

abbrev nBuf : Space → Nat
  | .hbm => 67
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x320, .f32⟩
  | .hbm, ⟨2, _⟩ => ⟨S448x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S128, .i32⟩
  | .hbm, ⟨9, _⟩ => ⟨S128, .i1⟩
  | .hbm, ⟨10, _⟩ => ⟨S128, .i32⟩
  | .hbm, ⟨11, _⟩ => ⟨S128, .i1⟩
  | .hbm, ⟨12, _⟩ => ⟨S128, .i1⟩
  | .hbm, ⟨13, _⟩ => ⟨S128, .i1⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S128x1, .i32⟩
  | .hbm, ⟨19, _⟩ => ⟨S131072x128, .f32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S131072x128, .f32⟩
  | .hbm, ⟨26, _⟩ => ⟨S131072x448, .f32⟩
  | .hbm, ⟨27, _⟩ => ⟨S131072x128, .f32⟩
  | .hbm, ⟨28, _⟩ => ⟨S1x128, .f32⟩
  | .hbm, ⟨29, _⟩ => ⟨S131072x128, .f32⟩
  | .hbm, ⟨30, _⟩ => ⟨S131072x128, .f32⟩
  | .hbm, ⟨31, _⟩ => ⟨S_, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S1x128, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S131072x256, .f32⟩
  | .hbm, ⟨42, _⟩ => ⟨S1x256, .f32⟩
  | .hbm, ⟨43, _⟩ => ⟨S131072x256, .f32⟩
  | .hbm, ⟨44, _⟩ => ⟨S131072x256, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072, .f32⟩
  | .hbm, ⟨53, _⟩ => ⟨S_, .f32⟩
  | .hbm, ⟨54, _⟩ => ⟨S131072x256, .f32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S131072x256, .f32⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_6 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_cst : Ref sig .tc := ⟨.hbm, 31, rfl⟩
abbrev main_call0_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S131072x128_S131072x320_S131072x448_d1 : Shape.Concatenates [S131072x128, S131072x320] S131072x448 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x128_0_0 : S131072x256.Slices ![0, 0] S131072x128
  slices_S131072x256_S131072x128_0_128 : S131072x256.Slices ![0, 128] S131072x128
  reducesTo_S131072x128_S131072_d1 : S131072x128.ReducesTo [1] S131072
  h_S_ : 0 < S_.numel
  bcast_S_S131072x256 : S_.BroadcastsInDim S131072x256 (![] : Fin 0 → Fin S131072x256.rank)
  gather_S131072x256_S128x1_S131072x128_0_1_n_n_1_1_1310721_wf : GatherDims.WF S131072x256 S128x1 S131072x128 [0] [1] [] [1] [] 1 ![131072, 1]
  dot_S131072x448_S448x128_S131072x128_1_0_0_1_n_n_wf : DotDims.WF S131072x448 S448x128 S131072x128 [1] [0] [0] [1] [] []
  dot_S131072x128_S128x128_S131072x128_1_0_0_1_n_n_wf : DotDims.WF S131072x128 S128x128 S131072x128 [1] [0] [0] [1] [] []
  dot_S131072x128_S128x256_S131072x256_1_0_0_1_n_n_wf : DotDims.WF S131072x128 S128x256 S131072x256 [1] [0] [0] [1] [] []
  scatter_S131072x256_S128x1_S131072x128_0_1_1_1_wf : ScatterDims.WF S131072x256 S128x1 S131072x128 [0] [1] [1] 1

variable [Facts₀]

def gather_S131072x256_S128x1_S131072x128_0_1_n_n_1_1_1310721 : GatherDims S131072x256 S128x1 S131072x128 where
  offsetDims := [0]
  collapsedSliceDims := [1]
  operandBatchingDims := []
  startIndicesBatchingDims := []
  startIndexMap := [1]
  indexVectorDim := 1
  sliceSizes := ![131072, 1]
  wf := gather_S131072x256_S128x1_S131072x128_0_1_n_n_1_1_1310721_wf
def dot_S131072x448_S448x128_S131072x128_1_0_0_1_n_n : DotDims S131072x448 S448x128 S131072x128 where
  lhsContracting := [1]
  rhsContracting := [0]
  lhsNonContracting := [0]
  rhsNonContracting := [1]
  lhsBatch := []
  rhsBatch := []
  wf := dot_S131072x448_S448x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def scatter_S131072x256_S128x1_S131072x128_0_1_1_1 : ScatterDims S131072x256 S128x1 S131072x128 where
  updateWindowDims := [0]
  insertedWindowDims := [1]
  scatterDimsToOperandDims := [1]
  indexVectorDim := 1
  wf := scatter_S131072x256_S128x1_S131072x128_0_1_1_1_wf

class Facts : Prop extends Facts₀ where

variable [Facts]
-- ==== Proof.Spec.lean ====
/-
  An affine coupling layer with an alternating mask, as one function of its arguments, over the extended reals.

  A row `x` of 256 numbers splits into its even-numbered entries, which are kept, and its odd-numbered ones, which
  are moved.  The kept half, joined to a row `h` of 320 conditioning numbers, goes through three dense layers with a
  rectifier after the first two.  Of the 256 outputs the first 128, under `tanh`, are the scales and the last 128 the
  shifts.  A moved entry `o` becomes `o · exp (scale) + shift`; a kept entry passes through unchanged, each in its own
  column.  The row's log-determinant is the sum of its 128 scales.  Sums and products are the exact ones.
-/
import Idealize.ShloMosaic.PureOps.Ideal
import Idealize.ShloMosaic.Lib.ValueIdx

noncomputable section

open scoped BigOperators

namespace Cert.Coupling

open Idealize.ShloMosaic Idealize.ShloMosaic.ValueIdx

/-- The kept half of a row followed by the conditioning row: 128 + 320 = 448 entries. -/
def joined (a : Fin 128 → EReal) (h : Fin 320 → EReal) : Fin 448 → EReal :=
  fun k => if hk : k.val < 128 then a ⟨k.val, hk⟩ else h ⟨k.val - 128, by have := k.isLt; omega⟩

/-- A dense layer: entry `j` is the sum over `c` of `v c · W c j`, plus the bias `b j`. -/
def dense {k n : ℕ} (v : Fin k → EReal) (W : Fin k → Fin n → EReal) (b : Fin n → EReal) : Fin n → EReal :=
  fun j => (∑ c : Fin k, v c * W c j) + b j

/-- The rectifier: the larger of each entry and zero. -/
def relu {n : ℕ} (v : Fin n → EReal) : Fin n → EReal := fun j => max (v j) 0

/-- The three layers' matrices and biases, entry by entry. -/
structure Weights where
  W1 : Fin 448 → Fin 128 → EReal
  b1 : Fin 128 → EReal
  W2 : Fin 128 → Fin 128 → EReal
  b2 : Fin 128 → EReal
  W3 : Fin 128 → Fin 256 → EReal
  b3 : Fin 256 → EReal

/-- The weights read off their arrays. -/
def weightsOf (W1 : (⟨2, ![448, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 256]⟩ : Shape).Idx → EReal) (b3 : (⟨1, ![256]⟩ : Shape).Idx → EReal) : Weights where
  W1 := fun c j => W1 (ix2 c j)
  b1 := fun j => b1 (ix1 j)
  W2 := fun c j => W2 (ix2 c j)
  b2 := fun j => b2 (ix1 j)
  W3 := fun c j => W3 (ix2 c j)
  b3 := fun j => b3 (ix1 j)

/-- The network's 256 outputs for a row's kept half `a` and conditioning row `h`. -/
def net (w : Weights) (a : Fin 128 → EReal) (h : Fin 320 → EReal) : Fin 256 → EReal :=
  dense (relu (dense (relu (dense (joined a h) w.W1 w.b1)) w.W2 w.b2)) w.W3 w.b3

/-- The scales: `tanh` of the first 128 outputs. -/
def scale (w : Weights) (a : Fin 128 → EReal) (h : Fin 320 → EReal) : Fin 128 → EReal :=
  fun j => Ideal.tanh (net w a h ⟨j.val, by have := j.isLt; omega⟩)

/-- The shifts: the last 128 outputs. -/
def shift (w : Weights) (a : Fin 128 → EReal) (h : Fin 320 → EReal) : Fin 128 → EReal :=
  fun j => net w a h ⟨128 + j.val, by have := j.isLt; omega⟩

/-- The moved half `o` of a row after the layer: `o · exp (scale) + shift`. -/
def moved (w : Weights) (o a : Fin 128 → EReal) (h : Fin 320 → EReal) : Fin 128 → EReal :=
  fun j => o j * Ideal.exp (scale w a h j) + shift w a h j

/-- The row's log-determinant: the sum of its scales. -/
def logdet (w : Weights) (a : Fin 128 → EReal) (h : Fin 320 → EReal) : EReal := ∑ j : Fin 128, scale w a h j

/-- The even-numbered entries of a row. -/
def evens (x : Fin 256 → EReal) : Fin 128 → EReal := fun j => x ⟨2 * j.val, by have := j.isLt; omega⟩

/-- The odd-numbered entries of a row. -/
def odds (x : Fin 256 → EReal) : Fin 128 → EReal := fun j => x ⟨2 * j.val + 1, by have := j.isLt; omega⟩

/-- Entry `c` of the output row: an even column keeps `x c`, the odd column `2 j + 1` holds moved entry `j`. -/
def outAt (w : Weights) (x : Fin 256 → EReal) (h : Fin 320 → EReal) (c : Fin 256) : EReal :=
  if c.val % 2 = 0 then x c else moved w (odds x) (evens x) h ⟨c.val / 2, by have := c.isLt; omega⟩

/-- The whole output array: row `r` is `outAt` of row `r` of `x` and of `h`. -/
def Y (w : Weights) (x : (⟨2, ![131072, 256]⟩ : Shape).Idx → EReal) (h : (⟨2, ![131072, 320]⟩ : Shape).Idx → EReal) :
    (⟨2, ![131072, 256]⟩ : Shape).Idx → EReal :=
  fun i => outAt w (fun q => x (ix2 (⟨(i 0).val, idx2_lt0 i⟩ : Fin 131072) q))
    (fun q => h (ix2 (⟨(i 0).val, idx2_lt0 i⟩ : Fin 131072) q)) ⟨(i 1).val, idx2_lt1 i⟩

/-- The log-determinants, one per row. -/
def L (w : Weights) (x : (⟨2, ![131072, 256]⟩ : Shape).Idx → EReal) (h : (⟨2, ![131072, 320]⟩ : Shape).Idx → EReal) :
    (⟨1, ![131072]⟩ : Shape).Idx → EReal :=
  fun i => logdet w (evens fun q => x (ix2 (⟨(i 0).val, (i 0).isLt⟩ : Fin 131072) q))
    (fun q => h (ix2 (⟨(i 0).val, (i 0).isLt⟩ : Fin 131072) q))

theorem Y_ix2 (w : Weights) (x : (⟨2, ![131072, 256]⟩ : Shape).Idx → EReal) (h : (⟨2, ![131072, 320]⟩ : Shape).Idx → EReal)
    (r : Fin 131072) (c : Fin 256) :
    Y w x h (ix2 r c) = outAt w (fun q => x (ix2 r q)) (fun q => h (ix2 r q)) c := rfl

theorem L_ix1 (w : Weights) (x : (⟨2, ![131072, 256]⟩ : Shape).Idx → EReal) (h : (⟨2, ![131072, 320]⟩ : Shape).Idx → EReal)
    (r : Fin 131072) :
    L w x h (ix1 r) = logdet w (evens fun q => x (ix2 r q)) (fun q => h (ix2 r q)) := rfl

end Cert.Coupling

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibRankThree.lean ====
/-
  Rank-3 arrays `[a, b, n]` — a batch of `a · b` rows of length `n` — under the host's layout operations and its
  product, each read at an index written by coordinates.

  * A cut along the last axis from `o`: entry `(p, q, j)` is the operand's `(p, q, o + j)`.
  * One slab picked on the leading axis (or the two leading axes) by a cut of extent one, and the unit axes then
    dropped: a sub-array is read where it sits in the whole.
  * A vector placed on the last axis and repeated over the two leading ones; a scalar repeated everywhere; a matrix
    given a trailing unit axis.
  * Two arrays joined along the last axis: entry `(p, q, k)` is the first's `(p, q, k)` below its width and the
    second's `(p, q, k - width)` from there on; the same for matrices joined along their columns.
  * The product of `[a, b, k]` with `[n, k]` contracting the last axis of both: entry `(p, q, j)` is the sum over `c`
    of `A (p, q, c) · B (j, c)` at the ideal values, where a product is an exact sum.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RankThree

open Idealize.ShloMosaic Idealize.ShloMosaic.ValueIdx

variable {α : Type}

/-! ## Cuts -/

/-- A rank-3 array cut along its last axis from `o` reads, at `(p, q, j)`, the source at `(p, q, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Slab `l` of the leading axis, kept as an array with a leading unit axis. -/
theorem slice3_pick0_apply {n0 n1 n2 : ℕ} (l : ℕ) (X : (⟨3, ![n0, n1, n2]⟩ : Shape).Idx → α)
    (h : (⟨3, ![n0, n1, n2]⟩ : Shape).Slices ![l, 0, 0] ⟨3, ![1, n1, n2]⟩)
    (z : Fin 1) (q : Fin n1) (j : Fin n2) (p : Fin n0) (hp : p.val = l) :
    extractStridedSlice ⟨3, ![1, n1, n2]⟩ ![l, 0, 0] X h (ix3 z q j) = X (ix3 p q j) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm)

/-- Row `(l, d)` of the two leading axes, kept as an array with two leading unit axes. -/
theorem slice3_pick01_apply {n0 n1 n2 : ℕ} (l d : ℕ) (X : (⟨3, ![n0, n1, n2]⟩ : Shape).Idx → α)
    (h : (⟨3, ![n0, n1, n2]⟩ : Shape).Slices ![l, d, 0] ⟨3, ![1, 1, n2]⟩)
    (z z' : Fin 1) (j : Fin n2) (p : Fin n0) (q : Fin n1) (hp : p.val = l) (hq : q.val = d) :
    extractStridedSlice ⟨3, ![1, 1, n2]⟩ ![l, d, 0] X h (ix3 z z' j) = X (ix3 p q j) :=
  extractStridedSlice_apply _ _ _ _ _ (fun ax => by
    match ax with
    | ⟨0, _⟩ => show p.val = l + z.val; have := z.isLt; omega
    | ⟨1, _⟩ => show q.val = d + z'.val; have := z'.isLt; omega
    | ⟨2, _⟩ => exact (Nat.zero_add _).symm)

/-- Slab `l` of the leading axis of a rank-4 array, kept with a leading unit axis. -/
theorem slice4_pick0_apply {n0 n1 n2 n3 : ℕ} (l : ℕ) (X : (⟨4, ![n0, n1, n2, n3]⟩ : Shape).Idx → α)
    (h : (⟨4, ![n0, n1, n2, n3]⟩ : Shape).Slices ![l, 0, 0, 0] ⟨4, ![1, n1, n2, n3]⟩)
    (z : Fin 1) (q : Fin n1) (j : Fin n2) (e : Fin n3) (p : Fin n0) (hp : p.val = l) :
    extractStridedSlice ⟨4, ![1, n1, n2, n3]⟩ ![l, 0, 0, 0] X h (ix4 z q j e) = X (ix4 p q j e) :=
  extractStridedSlice_apply _ _ _ _ _ (fun ax => by
    match ax with
    | ⟨0, _⟩ => show p.val = l + z.val; have := z.isLt; omega
    | ⟨1, _⟩ => exact (Nat.zero_add _).symm
    | ⟨2, _⟩ => exact (Nat.zero_add _).symm
    | ⟨3, _⟩ => exact (Nat.zero_add _).symm)

/-! ## Unit axes dropped -/

/-- `[1, 1, n]` re-laid as a vector: entry `j` is entry `(0, 0, j)`. -/
theorem shapeCast_11n_n_apply {n : ℕ} (v : (⟨3, ![1, 1, n]⟩ : Shape).Idx → α)
    (h : (⟨3, ![1, 1, n]⟩ : Shape).ShapeCasts ⟨1, ![n]⟩) (j : Fin n) :
    shapeCast (⟨1, ![n]⟩ : Shape) v h (ix1 j) = v (ix3 (0 : Fin 1) (0 : Fin 1) j) := by
  refine shapeCast_apply v h (ix1 j) (ix3 (0 : Fin 1) (0 : Fin 1) j) ?_
  rw [Shape.rowMajor_val_three, Shape.rowMajor_val_one]
  show (0 * 1 + 0) * n + j.val = j.val
  simp

/-! ## Repetitions -/

/-- A vector placed on the last of three axes, the other two of extent one. -/
theorem broadcastInDim_n_11n_apply {n : ℕ} (v : (⟨1, ![n]⟩ : Shape).Idx → α)
    (h : (⟨1, ![n]⟩ : Shape).BroadcastsInDim ⟨3, ![1, 1, n]⟩ ![2]) (z z' : Fin 1) (j : Fin n) :
    broadcastInDim ⟨3, ![1, 1, n]⟩ ![2] h v (ix3 z z' j) = v (ix1 j) := by
  refine broadcastInDim_apply _ h v (ix3 z z' j) (ix1 j) fun ax => ?_
  match ax with
  | ⟨0, _⟩ =>
    show j.val = if n = 1 then 0 else j.val
    split
    · have := j.isLt; omega
    · rfl

/-- A `[1, 1, n]` array repeated over the two leading axes. -/
theorem broadcastInDim_11n_abn_apply {a b n : ℕ} (v : (⟨3, ![1, 1, n]⟩ : Shape).Idx → α)
    (h : (⟨3, ![1, 1, n]⟩ : Shape).BroadcastsInDim ⟨3, ![a, b, n]⟩ ![0, 1, 2]) (p : Fin a) (q : Fin b) (j : Fin n) :
    broadcastInDim ⟨3, ![a, b, n]⟩ ![0, 1, 2] h v (ix3 p q j) = v (ix3 (0 : Fin 1) (0 : Fin 1) j) := by
  refine broadcastInDim_apply _ h v (ix3 p q j) (ix3 (0 : Fin 1) (0 : Fin 1) j) fun ax => ?_
  match ax with
  | ⟨0, _⟩ => rfl
  | ⟨1, _⟩ => rfl
  | ⟨2, _⟩ =>
    show j.val = if n = 1 then 0 else j.val
    split
    · have := j.isLt; omega
    · rfl

/-- A scalar repeated over a whole array. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 fun ax => ax.elim0

/-- A matrix given a trailing unit axis. -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (z : Fin 1) :
    broadcastInDim ⟨3, ![a, b, 1]⟩ ![0, 1] h v (ix3 p q z) = v (ix2 p q) := by
  refine broadcastInDim_apply _ h v (ix3 p q z) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-! ## Two pieces side by side -/

/-- Two rank-3 arrays joined along the last axis, read at `(p, q, k)`. -/
theorem concatenate3_axis2_apply {a b n₁ n₂ n : ℕ} (x₁ : (⟨3, ![a, b, n₁]⟩ : Shape).Idx → α) (x₂ : (⟨3, ![a, b, n₂]⟩ : Shape).Idx → α)
    (h : Shape.Concatenates [⟨3, ![a, b, n₁]⟩, ⟨3, ![a, b, n₂]⟩] ⟨3, ![a, b, n]⟩ 2) (hn : n = n₁ + n₂)
    (p : Fin a) (q : Fin b) (k : Fin n) :
    concatenate ⟨3, ![a, b, n]⟩ 2 [⟨⟨3, ![a, b, n₁]⟩, x₁⟩, ⟨⟨3, ![a, b, n₂]⟩, x₂⟩] h (ix3 p q k)
      = if hk : k.val < n₁ then x₁ (ix3 p q ⟨k.val, hk⟩) else x₂ (ix3 p q ⟨k.val - n₁, by have := k.isLt; omega⟩) := by
  split
  · rename_i hk
    refine concatenate_pair_apply_left (2 : Fin 3) x₁ x₂ h (ix3 p q k) rfl (ix3 p q ⟨k.val, hk⟩) fun ax => ?_
    match ax with
    | ⟨0, _⟩ => rfl
    | ⟨1, _⟩ => rfl
    | ⟨2, _⟩ => rfl
  · rename_i hk
    refine concatenate_pair_apply_right (2 : Fin 3) x₁ x₂ h (ix3 p q k) rfl rfl
      (ix3 p q ⟨k.val - n₁, by have := k.isLt; omega⟩) (fun ax hne => ?_) ?_
    · match ax with
      | ⟨0, _⟩ => rfl
      | ⟨1, _⟩ => rfl
      | ⟨2, _⟩ => exact absurd rfl hne
    · show k.val - n₁ + n₁ = k.val
      omega

/-- Two matrices joined along their columns, read at `(p, k)`. -/
theorem concatenate2_axis1_apply {a n₁ n₂ n : ℕ} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (hn : n = n₁ + n₂)
    (p : Fin a) (k : Fin n) :
    concatenate ⟨2, ![a, n]⟩ 1 [⟨⟨2, ![a, n₁]⟩, x₁⟩, ⟨⟨2, ![a, n₂]⟩, x₂⟩] h (ix2 p k)
      = if hk : k.val < n₁ then x₁ (ix2 p ⟨k.val, hk⟩) else x₂ (ix2 p ⟨k.val - n₁, by have := k.isLt; omega⟩) := by
  split
  · rename_i hk
    refine concatenate_pair_apply_left (1 : Fin 2) x₁ x₂ h (ix2 p k) rfl (ix2 p ⟨k.val, hk⟩) fun ax => ?_
    match ax with
    | ⟨0, _⟩ => rfl
    | ⟨1, _⟩ => rfl
  · rename_i hk
    refine concatenate_pair_apply_right (1 : Fin 2) x₁ x₂ h (ix2 p k) rfl rfl
      (ix2 p ⟨k.val - n₁, by have := k.isLt; omega⟩) (fun ax hne => ?_) ?_
    · match ax with
      | ⟨0, _⟩ => rfl
      | ⟨1, _⟩ => exact absurd rfl hne
    · show k.val - n₁ + n₁ = k.val
      omega

/-! ## The batched product -/

/-- `A · Bᵀ` for a batch `A : [a, b, k]` of rows and `B : [n, k]`, read at `(p, q, j)`: the sum over the shared last
    coordinate of the products. -/
theorem dotGeneral_abk_nk_apply {a b n k : ℕ} {φ₁ φ₂ : FTy}
    (w : DotDims.WF ⟨3, ![a, b, k]⟩ ⟨2, ![n, k]⟩ ⟨3, ![a, b, n]⟩ [2] [1] [0, 1] [0] [] [])
    (prec : Option ContractPrecision) (A : FVec Ideal ⟨3, ![a, b, k]⟩ φ₁) (B : FVec Ideal ⟨2, ![n, k]⟩ φ₂)
    (p : Fin a) (q : Fin b) (j : Fin n) :
    Host.dotGeneral (⟨[2], [1], [0, 1], [0], [], [], w⟩ : DotDims _ _ _) prec A B (ix3 p q j)
      = ∑ c : Fin k, A (ix3 p q c) * B (ix2 j c) := by
  show FloatOps.dotGeneral (⟨[2], [1], [0, 1], [0], [], [], w⟩ : DotDims _ _ _) prec .single A B (ix3 p q j) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c2 := contrEquiv1_symm_val
    (⟨[2], [1], [0, 1], [0], [], [], w⟩ : DotDims ⟨3, ![a, b, k]⟩ ⟨2, ![n, k]⟩ ⟨3, ![a, b, n]⟩) k rfl rfl c
  have l2 : (⟨[2], [1], [0, 1], [0], [], [], w⟩ : DotDims ⟨3, ![a, b, k]⟩ ⟨2, ![n, k]⟩ ⟨3, ![a, b, n]⟩).lhsIdx (ix3 p q j)
      ((contrEquiv1 _ k rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], w⟩ : DotDims ⟨3, ![a, b, k]⟩ ⟨2, ![n, k]⟩ ⟨3, ![a, b, n]⟩).rhsIdx (ix3 p q j)
      ((contrEquiv1 _ k rfl rfl).symm c) = ix2 j c := by
    funext ax; apply Fin.ext
    match ax with
    | ⟨0, _⟩ => simp [DotDims.rhsIdx]; rfl
    | ⟨1, _⟩ => simp [DotDims.rhsIdx]; exact c2
  rw [l2, r2]

end Cert.RankThree

end
-- ==== Proof.LibRowFolds.lean ====
/-
  Reductions along the second axis of an `[a, b]` array, read at a row.

  At the ideal values a lane sum of row `p` is the sum of the row's entries, and a lane maximum the fold of `max` over
  them from the accumulator's value; the host's reduction by a commutative, associative operation is the same fold
  from its initial value.
-/
import Idealize.ShloMosaic.Lib.ValueIdx
import Idealize.ShloMosaic.PureOps.Ideal.Laws

noncomputable section

namespace Cert.RowFolds

open Idealize.ShloMosaic Idealize.ShloMosaic.ValueIdx

/-- Inserting coordinate `k` on the second axis of the one-coordinate index `p` gives `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

/-- A lane sum over the second axis, at row `p`: the sum of the row. -/
theorem laneSum_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A lane maximum over the second axis, at row `p`: the fold of `max` over the row from the accumulator's value. -/
theorem laneMax_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (Finset.fold max (Ideal.ofBits φ acc) · (Finset.univ : Finset (Fin b)))
      (funext fun k => congrArg v (lift_row h p k)))

/-- The host's reduction over the second axis by a commutative, associative operation, at row `p`: the fold over the
    row from the initial value. -/
theorem hostFold_apply {α : Type} {a b : ℕ} {u : Shape} (f : α → α → α) [Std.Commutative f] [Std.Associative f]
    (x : (⟨2, ![a, b]⟩ : Shape).Idx → α) (init : u.Idx → α) (h' : Shape.ReducesTo ⟨2, ![a, b]⟩ [1] ⟨1, ![a]⟩)
    (h : Shape.Reduces ⟨2, ![a, b]⟩ [1] ⟨1, ![a]⟩) (hu : 0 < u.numel) (p : Fin a) :
    Host.reduce f x init h' hu (ix1 p)
      = (Finset.univ : Finset (Fin b)).fold f (init (Shape.Idx.first hu)) (fun k => x (ix2 p k)) :=
  (Host.reduce_eq_fold_single f x init h' h hu (ix1 p)).trans
    (congrArg (Finset.fold f (init (Shape.Idx.first hu)) · (Finset.univ : Finset (Fin b)))
      (funext fun k => congrArg x (lift_row h p k)))

end Cert.RowFolds

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.KernelBody.lean ====
/-
  The kernel body on one block of 2048 rows, read at an index, at the ideal values.

  The block of `x` arrives with its columns regrouped: columns 0..127 are a row's kept (even-numbered) entries and
  columns 128..255 its moved (odd-numbered) ones.  Row `p` of the first output block keeps columns 0..127 and holds
  in column `128 + j` the moved entry `j` after the layer; row `p` of the second output block (one column) is the
  sum of the row's scales.  Each dense layer of the body — a product into a zero accumulator plus a bias row repeated
  down the rows — is the specification's dense layer on the row, the format changes around it being the identity.
-/
import proofs.«137100_j65893388255721_2_alg».proof.Proof.Gen.KernelIdeal.Frame
import proofs.«137100_j65893388255721_2_alg».proof.Proof.Spec
import proofs.«137100_j65893388255721_2_alg».proof.Proof.LibPlainProduct
import proofs.«137100_j65893388255721_2_alg».proof.Proof.LibRankThree
import proofs.«137100_j65893388255721_2_alg».proof.Proof.LibRowFolds
import proofs.«137100_j65893388255721_2_alg».proof.Proof.LibBroadcast
import proofs.«137100_j65893388255721_2_alg».proof.Proof.LibRowsProduct
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Cert.Coupling Idealize.ShloMosaic Idealize.ShloMosaic.ValueIdx

/-- One dense layer as the body writes it, at row `p` and output `j`: the row of `A` through the layer. -/
theorem dense_apply {k n : ℕ} (w : DotDims.WF ⟨2, ![2048, k]⟩ ⟨2, ![k, n]⟩ ⟨2, ![2048, n]⟩ [1] [0] [0] [1] [] [])
    (A : FVec Ideal ⟨2, ![2048, k]⟩ .f32) (W : FVec Ideal ⟨2, ![k, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![2048, n]⟩)
    (hlt : FTy.bf16.bits < FTy.f32.bits) (p : Fin 2048) (j : Fin n) :
    addf (matmul (⟨[1], [0], [0], [1], [], [], w⟩ : DotDims _ _ _) none (truncf .bf16 A hlt) (truncf .bf16 W hlt)
        (constant ⟨2, ![2048, n]⟩ .f32 0x00000000#32))
      (broadcastTo ⟨2, ![2048, n]⟩ (shapeCast ⟨2, ![1, n]⟩ b hc) hb) (ix2 p j)
      = dense (fun c => A (ix2 p c)) (fun c j => W (ix2 c j)) (fun j => b (ix1 j)) j := by
  show FloatOps.matmul (⟨[1], [0], [0], [1], [], [], w⟩ : DotDims _ _ _) none (truncf .bf16 A hlt) (truncf .bf16 W hlt)
      (constant ⟨2, ![2048, n]⟩ .f32 0x00000000#32) (ix2 p j)
    + broadcastTo ⟨2, ![2048, n]⟩ (shapeCast ⟨2, ![1, n]⟩ b hc) hb (ix2 p j) = _
  rw [Cert.PlainProduct.matmul_nn_apply, Cert.RowsProduct.broadcastTo_1n_an_apply, Cert.Layout.shapeCast_row_apply]
  rfl

/-- The rectifier as the body writes it: the larger of the entry and zero. -/
theorem rect_apply {n : ℕ} (v : FVec Ideal ⟨2, ![2048, n]⟩ .f32) (p : Fin 2048) (j : Fin n) :
    maximumf v (broadcast ⟨2, ![2048, n]⟩ (Scalar.ofBits (F := Ideal) .f32 0x00000000#32)) (ix2 p j) = max (v (ix2 p j)) 0 := by
  show max (v (ix2 p j)) (Ideal.ofBits .f32 0x00000000#32) = _
  rw [Ideal.ofBits_zero_f32]

/-- The kept half joined to the conditioning block, at row `p`: the specification's joined row. -/
theorem join_apply (a : FVec Ideal ⟨2, ![2048, 128]⟩ .f32) (h : FVec Ideal ⟨2, ![2048, 320]⟩ .f32)
    (hcat : Shape.Concatenates [⟨2, ![2048, 128]⟩, ⟨2, ![2048, 320]⟩] ⟨2, ![2048, 448]⟩ 1) (p : Fin 2048) (k : Fin 448) :
    concatenate ⟨2, ![2048, 448]⟩ 1 [⟨⟨2, ![2048, 128]⟩, a⟩, ⟨⟨2, ![2048, 320]⟩, h⟩] hcat (ix2 p k)
      = joined (fun j => a (ix2 p j)) (fun j => h (ix2 p j)) k := by
  rw [Cert.RankThree.concatenate2_axis1_apply a h hcat rfl p k]
  rfl

/-- The last layer's outputs (all 256 of them) at row `p`: the network on the row's kept half and conditioning row. -/
theorem outputs_apply (v0 : Vec Ideal S2048x128 .f32) (v4 : Vec Ideal S2048x320 .f32) (v6 : Vec Ideal S448x128 .f32)
    (v8 : Vec Ideal S128 .f32) (v16 : Vec Ideal S128x128 .f32) (v18 : Vec Ideal S128 .f32) (v26 : Vec Ideal S128x256 .f32)
    (v28 : Vec Ideal S256 .f32) (p : Fin 2048) (q : Fin 256) :
    k0_pay4 (F := Ideal) v0 v4 v6 v8 v16 v18 v26 v28 (ix2 p q)
      = net (weightsOf v6 v8 v16 v18 v26 v28) (fun j => v0 (ix2 p j)) (fun j => v4 (ix2 p j)) q := by
  unfold k0_pay4 k0_pay3
  refine (dense_apply _ _ _ _ _ _ _ p q).trans ?_
  refine congrArg (fun v => dense v _ _ q) (funext fun c2 => ?_)
  refine (rect_apply _ p c2).trans ?_
  refine congrArg (fun t => max t 0) ?_
  refine (dense_apply _ _ _ _ _ _ _ p c2).trans ?_
  refine congrArg (fun v => dense v _ _ c2) (funext fun c1 => ?_)
  refine (rect_apply _ p c1).trans ?_
  refine congrArg (fun t => max t 0) ?_
  refine (dense_apply _ _ _ _ _ _ _ p c1).trans ?_
  refine congrArg (fun v => dense v _ _ c1) (funext fun c0 => ?_)
  rw [shapeCast_self]
  exact join_apply _ _ _ p c0

/-- A rectangle of unit steps inside a matrix places its own index `(a, b)` at `(o0 + a, o1 + b)`. -/
theorem unit_idx2 {n0 n1 m0 m1 : ℕ} (o0 o1 : ℕ) (inb : ∀ ax, (![o0, o1] : Fin 2 → ℕ) ax + (![m0, m1] : Fin 2 → ℕ) ax ≤ (⟨2, ![n0, n1]⟩ : Shape).size ax)
    (a : Fin m0) (b : Fin m1) (a' : Fin n0) (b' : Fin n1) (ha : a'.val = o0 + a.val) (hb : b'.val = o1 + b.val) :
    (Rect.unit (s := ⟨2, ![n0, n1]⟩) ![o0, o1] ![m0, m1] inb).idx (ix2 a b) = ix2 a' b' := by
  funext ax; apply Fin.ext
  match ax with
  | ⟨0, _⟩ => show o0 + 1 * a.val = a'.val; omega
  | ⟨1, _⟩ => show o1 + 1 * b.val = b'.val; omega

/-- The scales at row `p`: `tanh` of the first 128 outputs. -/
theorem scales_apply (v0 : Vec Ideal S2048x128 .f32) (v4 : Vec Ideal S2048x320 .f32) (v6 : Vec Ideal S448x128 .f32)
    (v8 : Vec Ideal S128 .f32) (v16 : Vec Ideal S128x128 .f32) (v18 : Vec Ideal S128 .f32) (v26 : Vec Ideal S128x256 .f32)
    (v28 : Vec Ideal S256 .f32) (p : Fin 2048) (j : Fin 128) :
    k0_pay5 (F := Ideal) v0 v4 v6 v8 v16 v18 v26 v28 (ix2 p j)
      = scale (weightsOf v6 v8 v16 v18 v26 v28) (fun j => v0 (ix2 p j)) (fun j => v4 (ix2 p j)) j := by
  unfold k0_pay5
  show Ideal.tanh (extractStridedSlice S2048x128 ![0, 0] (k0_pay4 (F := Ideal) v0 v4 v6 v8 v16 v18 v26 v28) _ (ix2 p j)) = _
  rw [slice2_axis1_apply 0 _ _ p j (⟨j.val, by have := j.isLt; omega⟩ : Fin 256) (by show j.val = 0 + j.val; omega), outputs_apply]
  rfl

/-- The shifts at row `p`: the last 128 outputs. -/
theorem shifts_apply (v0 : Vec Ideal S2048x128 .f32) (v4 : Vec Ideal S2048x320 .f32) (v6 : Vec Ideal S448x128 .f32)
    (v8 : Vec Ideal S128 .f32) (v16 : Vec Ideal S128x128 .f32) (v18 : Vec Ideal S128 .f32) (v26 : Vec Ideal S128x256 .f32)
    (v28 : Vec Ideal S256 .f32) (p : Fin 2048) (j : Fin 128) :
    k0_pay6 (F := Ideal) v0 v4 v6 v8 v16 v18 v26 v28 (ix2 p j)
      = shift (weightsOf v6 v8 v16 v18 v26 v28) (fun j => v0 (ix2 p j)) (fun j => v4 (ix2 p j)) j := by
  unfold k0_pay6
  show extractStridedSlice S2048x128 ![0, 128] (k0_pay4 (F := Ideal) v0 v4 v6 v8 v16 v18 v26 v28) _ (ix2 p j) = _
  rw [slice2_axis1_apply 128 _ _ p j (⟨128 + j.val, by have := j.isLt; omega⟩ : Fin 256) rfl, outputs_apply]
  rfl

/-- The moved half after the layer, at row `p`: `o · exp (scale) + shift`. -/
theorem moved_apply (v0 v2 : Vec Ideal S2048x128 .f32) (v4 : Vec Ideal S2048x320 .f32) (v6 : Vec Ideal S448x128 .f32)
    (v8 : Vec Ideal S128 .f32) (v16 : Vec Ideal S128x128 .f32) (v18 : Vec Ideal S128 .f32) (v26 : Vec Ideal S128x256 .f32)
    (v28 : Vec Ideal S256 .f32) (p : Fin 2048) (j : Fin 128) :
    k0_pay1 (F := Ideal) (k0_pay6 v0 v4 v6 v8 v16 v18 v26 v28) (k0_pay7 v0 v2 v4 v6 v8 v16 v18 v26 v28) (ix2 p j)
      = moved (weightsOf v6 v8 v16 v18 v26 v28) (fun j => v2 (ix2 p j)) (fun j => v0 (ix2 p j)) (fun j => v4 (ix2 p j)) j := by
  unfold k0_pay1 k0_pay7
  show shapeCast S2048x128 v2 _ (ix2 p j) * Ideal.exp (k0_pay5 (F := Ideal) v0 v4 v6 v8 v16 v18 v26 v28 (ix2 p j))
    + k0_pay6 (F := Ideal) v0 v4 v6 v8 v16 v18 v26 v28 (ix2 p j) = _
  rw [shapeCast_self, scales_apply, shifts_apply]
  rfl

/-- The sum of a row's scales, as the one-column block holds it. -/
theorem rowSum_apply (v0 : Vec Ideal S2048x128 .f32) (v4 : Vec Ideal S2048x320 .f32) (v6 : Vec Ideal S448x128 .f32)
    (v8 : Vec Ideal S128 .f32) (v16 : Vec Ideal S128x128 .f32) (v18 : Vec Ideal S128 .f32) (v26 : Vec Ideal S128x256 .f32)
    (v28 : Vec Ideal S256 .f32) (p : Fin 2048) :
    k0_pay2 (F := Ideal) (k0_pay5 v0 v4 v6 v8 v16 v18 v26 v28) (ix2 p (0 : Fin 1))
      = logdet (weightsOf v6 v8 v16 v18 v26 v28) (fun j => v0 (ix2 p j)) (fun j => v4 (ix2 p j)) := by
  unfold k0_pay2
  refine (Cert.Layout.shapeCast_col_apply _ _ p).trans ?_
  refine (Cert.RowFolds.laneSum_apply _ _ _ _ _ p).trans ?_
  exact Finset.sum_congr rfl fun j _ => scales_apply v0 v4 v6 v8 v16 v18 v26 v28 p j

/-- Row `p`'s kept half in the regrouped block: columns 0..127. -/
def keptRow (x0 : Vec Ideal S2048x256 .f32) (p : Fin 2048) : Fin 128 → EReal :=
  fun j => x0 (ix2 p (⟨j.val, by have := j.isLt; omega⟩ : Fin 256))

/-- Row `p`'s moved half in the regrouped block: columns 128..255. -/
def movedRow (x0 : Vec Ideal S2048x256 .f32) (p : Fin 2048) : Fin 128 → EReal :=
  fun j => x0 (ix2 p (⟨128 + j.val, by have := j.isLt; omega⟩ : Fin 256))

theorem zeros2 : (![0, 0] : Fin 2 → ℕ) = fun _ => 0 := by
  funext a; match a with | ⟨0, _⟩ => rfl | ⟨1, _⟩ => rfl

theorem zeros1 : (![0] : Fin 1 → ℕ) = fun _ => 0 := by
  funext a; match a with | ⟨0, _⟩ => rfl

/-- Where the left-half rectangle places `(p, j)`. -/
theorem left_idx (p : Fin 2048) (j : Fin 128) :
    r0_0.idx (ix2 p j) = (ix2 p (⟨j.val, by have := j.isLt; omega⟩ : Fin 256) : S2048x256.Idx) :=
  unit_idx2 0 0 _ p j p _ (by omega) (by show j.val = 0 + j.val; omega)

/-- Where the right-half rectangle places `(p, j)`. -/
theorem right_idx (p : Fin 2048) (j : Fin 128) :
    r0_1.idx (ix2 p j) = (ix2 p (⟨128 + j.val, by have := j.isLt; omega⟩ : Fin 256) : S2048x256.Idx) :=
  unit_idx2 0 128 _ p j p _ (by omega) rfl

/-- A column of the left half is outside the right-half rectangle. -/
theorem not_right (p : Fin 2048) (j : Fin 128) :
    (ix2 p (⟨j.val, by have := j.isLt; omega⟩ : Fin 256) : S2048x256.Idx) ∉ r0_1.set := by
  intro h
  have h' := Rect.mem_set_unit.mp h
  have h2 := h' (1 : Fin 2)
  have h1 : (128 : ℕ) ≤ j.val := h2.1
  have := j.isLt
  omega

/-- Two stores, the right half last: a column of the right half reads the right-half store. -/
theorem canon2_hi (P1 P0 : Vec Ideal S2048x128 .f32) (p : Fin 2048) (j : Fin 128) :
    View.canon ([⟨r0_1, P1⟩, ⟨r0_0, P0⟩] : List (View.Piece (Elt Ideal) S2048x256 .f32))
      (ix2 p (⟨128 + j.val, by have := j.isLt; omega⟩ : Fin 256)) = P1 (ix2 p j) := by
  rw [← right_idx p j]
  exact View.canon_cons_emb r0_1 P1 [⟨r0_0, P0⟩] (ix2 p j)

/-- … and a column of the left half reads the left-half store. -/
theorem canon2_lo (P1 P0 : Vec Ideal S2048x128 .f32) (p : Fin 2048) (j : Fin 128) :
    View.canon ([⟨r0_1, P1⟩, ⟨r0_0, P0⟩] : List (View.Piece (Elt Ideal) S2048x256 .f32))
      (ix2 p (⟨j.val, by have := j.isLt; omega⟩ : Fin 256)) = P0 (ix2 p j) := by
  rw [View.canon_cons_of_not_mem (⟨r0_1, P1⟩ : View.Piece (Elt Ideal) S2048x256 .f32) [⟨r0_0, P0⟩] (not_right p j)]
  rw [← left_idx p j]
  exact View.canon_cons_emb r0_0 P0 [] (ix2 p j)

/-- The left half of the block, loaded, at row `p`: the kept half. -/
theorem ld_left (x0 : Vec Ideal S2048x256 .f32) (p : Fin 2048) :
    (fun j : Fin 128 => View.ld x0 r0_0 (ix2 p j)) = keptRow x0 p :=
  funext fun j => congrArg x0 (left_idx p j)

/-- The right half of the block, loaded, at row `p`: the moved half. -/
theorem ld_right (x0 : Vec Ideal S2048x256 .f32) (p : Fin 2048) :
    (fun j : Fin 128 => View.ld x0 r0_1 (ix2 p j)) = movedRow x0 p :=
  funext fun j => congrArg x0 (right_idx p j)

/-- The first output block at a column of its right half: the moved entry after the layer. -/
theorem out8_hi (x0 : Vec Ideal S2048x256 .f32) (x1 : Vec Ideal S2048x320 .f32) (x2 : Vec Ideal S448x128 .f32)
    (x3 : Vec Ideal S128 .f32) (x4 : Vec Ideal S128x128 .f32) (x5 : Vec Ideal S128 .f32) (x6 : Vec Ideal S128x256 .f32)
    (x7 : Vec Ideal S256 .f32) (p : Fin 2048) (j : Fin 128) :
    out0_8 (F := Ideal) x0 x1 x2 x3 x4 x5 x6 x7 (ix2 p (⟨128 + j.val, by have := j.isLt; omega⟩ : Fin 256))
      = moved (weightsOf x2 x3 x4 x5 x6 x7) (movedRow x0 p) (keptRow x0 p) (fun q => x1 (ix2 p q)) j := by
  have h1 : View.ld x1 r0_2 = x1 := View.ld_unit_zero (S := S2048x320) zeros2 _ x1
  have h2 : View.ld x2 r0_3 = x2 := View.ld_unit_zero (S := S448x128) zeros2 _ x2
  have h3 : View.ld x3 r0_4 = x3 := View.ld_unit_zero (S := S128) zeros1 _ x3
  have h4 : View.ld x4 r0_5 = x4 := View.ld_unit_zero (S := S128x128) zeros2 _ x4
  have h5 : View.ld x5 r0_4 = x5 := View.ld_unit_zero (S := S128) zeros1 _ x5
  have h6 : View.ld x6 r0_6 = x6 := View.ld_unit_zero (S := S128x256) zeros2 _ x6
  have h7 : View.ld x7 r0_7 = x7 := View.ld_unit_zero (S := S256) zeros1 _ x7
  unfold out0_8
  refine (canon2_hi _ _ p j).trans ?_
  refine (moved_apply _ _ _ _ _ _ _ _ _ p j).trans ?_
  rw [ld_left x0 p, ld_right x0 p, h1, h2, h3, h4, h5, h6, h7]

/-- The first output block at a column of its left half: the kept entry, unchanged. -/
theorem out8_lo (x0 : Vec Ideal S2048x256 .f32) (x1 : Vec Ideal S2048x320 .f32) (x2 : Vec Ideal S448x128 .f32)
    (x3 : Vec Ideal S128 .f32) (x4 : Vec Ideal S128x128 .f32) (x5 : Vec Ideal S128 .f32) (x6 : Vec Ideal S128x256 .f32)
    (x7 : Vec Ideal S256 .f32) (p : Fin 2048) (j : Fin 128) :
    out0_8 (F := Ideal) x0 x1 x2 x3 x4 x5 x6 x7 (ix2 p (⟨j.val, by have := j.isLt; omega⟩ : Fin 256)) = keptRow x0 p j := by
  unfold out0_8
  refine (canon2_lo _ _ p j).trans ?_
  unfold k0_pay3
  rw [shapeCast_self]
  exact congrFun (ld_left x0 p) j

/-- The second output block at row `p`: the row's log-determinant. -/
theorem out9_apply (x0 : Vec Ideal S2048x256 .f32) (x1 : Vec Ideal S2048x320 .f32) (x2 : Vec Ideal S448x128 .f32)
    (x3 : Vec Ideal S128 .f32) (x4 : Vec Ideal S128x128 .f32) (x5 : Vec Ideal S128 .f32) (x6 : Vec Ideal S128x256 .f32)
    (x7 : Vec Ideal S256 .f32) (p : Fin 2048) :
    out0_9 (F := Ideal) x0 x1 x2 x3 x4 x5 x6 x7 (ix2 p (0 : Fin 1))
      = logdet (weightsOf x2 x3 x4 x5 x6 x7) (keptRow x0 p) (fun q => x1 (ix2 p q)) := by
  have h1 : View.ld x1 r0_2 = x1 := View.ld_unit_zero (S := S2048x320) zeros2 _ x1
  have h2 : View.ld x2 r0_3 = x2 := View.ld_unit_zero (S := S448x128) zeros2 _ x2
  have h3 : View.ld x3 r0_4 = x3 := View.ld_unit_zero (S := S128) zeros1 _ x3
  have h4 : View.ld x4 r0_5 = x4 := View.ld_unit_zero (S := S128x128) zeros2 _ x4
  have h5 : View.ld x5 r0_4 = x5 := View.ld_unit_zero (S := S128) zeros1 _ x5
  have h6 : View.ld x6 r0_6 = x6 := View.ld_unit_zero (S := S128x256) zeros2 _ x6
  have h7 : View.ld x7 r0_7 = x7 := View.ld_unit_zero (S := S256) zeros1 _ x7
  unfold out0_9
  refine (congrFun (View.canon_unit_zero (S := S2048x1) zeros2 _ _) (ix2 p (0 : Fin 1))).trans ?_
  refine (rowSum_apply _ _ _ _ _ _ _ _ p).trans ?_
  rw [ld_left x0 p, h1, h2, h3, h4, h5, h6, h7]

end Cert.KernelIdeal.Body

end
-- ==== Proof.KernelGrid.lean ====
/-
  The region's two results as whole arrays, in the regrouped column order the region works in.

  With `xd` the input whose columns 0..127 are each row's kept entries and columns 128..255 its moved ones, the first
  result keeps columns 0..127 and holds in column `128 + j` the moved entry `j` after the layer; the second result,
  one column, holds each row's log-determinant.
-/
import proofs.«137100_j65893388255721_2_alg».proof.Proof.Spec

noncomputable section

namespace Cert.Coupling

open Idealize.ShloMosaic Idealize.ShloMosaic.ValueIdx

/-- Row `r`'s kept half of the regrouped input. -/
def keptOf (xd : (⟨2, ![131072, 256]⟩ : Shape).Idx → EReal) (r : Fin 131072) : Fin 128 → EReal :=
  fun j => xd (ix2 r (⟨j.val, by have := j.isLt; omega⟩ : Fin 256))

/-- Row `r`'s moved half of the regrouped input. -/
def movedOf (xd : (⟨2, ![131072, 256]⟩ : Shape).Idx → EReal) (r : Fin 131072) : Fin 128 → EReal :=
  fun j => xd (ix2 r (⟨128 + j.val, by have := j.isLt; omega⟩ : Fin 256))

/-- The first result in regrouped order. -/
def G8 (w : Weights) (xd : (⟨2, ![131072, 256]⟩ : Shape).Idx → EReal) (h : (⟨2, ![131072, 320]⟩ : Shape).Idx → EReal) :
    (⟨2, ![131072, 256]⟩ : Shape).Idx → EReal :=
  fun i => if hq : (i 1).val < 128 then xd i
    else moved w (movedOf xd ⟨(i 0).val, idx2_lt0 i⟩) (keptOf xd ⟨(i 0).val, idx2_lt0 i⟩)
      (fun q => h (ix2 (⟨(i 0).val, idx2_lt0 i⟩ : Fin 131072) q)) ⟨(i 1).val - 128, by have := idx2_lt1 i; omega⟩

/-- The second result: one column of log-determinants. -/
def G9 (w : Weights) (xd : (⟨2, ![131072, 256]⟩ : Shape).Idx → EReal) (h : (⟨2, ![131072, 320]⟩ : Shape).Idx → EReal) :
    (⟨2, ![131072, 1]⟩ : Shape).Idx → EReal :=
  fun i => logdet w (keptOf xd ⟨(i 0).val, idx2_lt0 i⟩) (fun q => h (ix2 (⟨(i 0).val, idx2_lt0 i⟩ : Fin 131072) q))

theorem G8_lo (w : Weights) (xd : (⟨2, ![131072, 256]⟩ : Shape).Idx → EReal) (h : (⟨2, ![131072, 320]⟩ : Shape).Idx → EReal)
    (r : Fin 131072) (j : Fin 128) :
    G8 w xd h (ix2 r (⟨j.val, by have := j.isLt; omega⟩ : Fin 256)) = keptOf xd r j := by
  unfold G8
  rw [dif_pos (show ((ix2 r (⟨j.val, by have := j.isLt; omega⟩ : Fin 256) : (⟨2, ![131072, 256]⟩ : Shape).Idx) 1).val < 128 from j.isLt)]
  rfl

theorem G8_hi (w : Weights) (xd : (⟨2, ![131072, 256]⟩ : Shape).Idx → EReal) (h : (⟨2, ![131072, 320]⟩ : Shape).Idx → EReal)
    (r : Fin 131072) (j : Fin 128) :
    G8 w xd h (ix2 r (⟨128 + j.val, by have := j.isLt; omega⟩ : Fin 256))
      = moved w (movedOf xd r) (keptOf xd r) (fun q => h (ix2 r q)) j := by
  unfold G8
  rw [dif_neg (show ¬ ((ix2 r (⟨128 + j.val, by have := j.isLt; omega⟩ : Fin 256) : (⟨2, ![131072, 256]⟩ : Shape).Idx) 1).val < 128 from
    by show ¬ (128 + j.val < 128); omega)]
  exact congrArg (moved w (movedOf xd r) (keptOf xd r) (fun q => h (ix2 r q))) (Fin.ext (by show 128 + j.val - 128 = j.val; omega))

theorem G9_ix (w : Weights) (xd : (⟨2, ![131072, 256]⟩ : Shape).Idx → EReal) (h : (⟨2, ![131072, 320]⟩ : Shape).Idx → EReal)
    (r : Fin 131072) :
    G9 w xd h (ix2 r (0 : Fin 1)) = logdet w (keptOf xd r) (fun q => h (ix2 r q)) := rfl

end Cert.Coupling

end
-- ==== Proof.KernelArrays.lean ====
/-
  From blocks to arrays: what the region leaves in its two result arrays.

  The grid has 64 points; point `t` works on rows `2048 t … 2048 t + 2047`.  The two row-blocked inputs and the two
  results move with the point; the six weight arrays are each one block, the same at every point.  What point `t`
  writes back is therefore block `t` of one whole-array function of the arrays the region finds, and the 64 blocks
  tile the rows, so each result array ends holding that function.
-/
import proofs.«137100_j65893388255721_2_alg».proof.Proof.KernelBody
import proofs.«137100_j65893388255721_2_alg».proof.Proof.KernelGrid
import Idealize.ShloMosaic.Lib.Pipeline.Value

set_option maxRecDepth 16384

noncomputable section

namespace Cert.KernelIdeal.Arrays

open Cert.KernelIdeal Cert.KernelIdeal.Gen Cert.KernelIdeal.Body Cert.Coupling
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps over the grid: the row-blocked windows sit at block `t` of the rows, every other
    coordinate of every window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- A grid point is below 64. -/
theorem point_lt (t : Fin cfg0.N) : t.val < 64 := lt_of_lt_of_eq t.isLt N_0

/-- Row `p` of point `t`'s block is row `2048 t + p` of the array. -/
def row (t : Fin cfg0.N) (p : Fin 2048) : Fin 131072 :=
  ⟨t.val * 2048 + p.val, by have := point_lt t; have := p.isLt; omega⟩

/-! ## Each window's block, read at an index -/

theorem read0 (c : Dev nD) (t : Fin cfg0.N) (p : Fin 2048) (q : Fin 256) :
    iblk m c 0 t (ix2 p q) = V m c main_v2 (ix2 (row t p) q) := by
  show V m c main_v2 (((cfg0.win 0).blk t).view.emb (ix2 p q)) = _
  refine congrArg _ ?_
  obtain ⟨e0, e1, -⟩ := idx_facts t
  funext a; apply Fin.ext
  match a with
  | ⟨0, _⟩ => show win0_0.index t (0 : Fin 2) * 2048 + 1 * p.val = t.val * 2048 + p.val; omega
  | ⟨1, _⟩ => show win0_0.index t (1 : Fin 2) * 256 + 1 * q.val = q.val; omega

theorem read1 (c : Dev nD) (t : Fin cfg0.N) (p : Fin 2048) (q : Fin 320) :
    iblk m c 1 t (ix2 p q) = V m c main_arg1 (ix2 (row t p) q) := by
  show V m c main_arg1 (((cfg0.win 1).blk t).view.emb (ix2 p q)) = _
  refine congrArg _ ?_
  obtain ⟨-, -, e0, e1, -⟩ := idx_facts t
  funext a; apply Fin.ext
  match a with
  | ⟨0, _⟩ => show win0_1.index t (0 : Fin 2) * 2048 + 1 * p.val = t.val * 2048 + p.val; omega
  | ⟨1, _⟩ => show win0_1.index t (1 : Fin 2) * 320 + 1 * q.val = q.val; omega

theorem read2 (c : Dev nD) (t : Fin cfg0.N) : iblk m c 2 t = V m c main_arg2 := by
  funext y
  show V m c main_arg2 (((cfg0.win 2).blk t).view.emb y) = V m c main_arg2 y
  refine congrArg _ ?_
  obtain ⟨-, -, -, -, e0, e1, -⟩ := idx_facts t
  funext a; apply Fin.ext
  match a with
  | ⟨0, _⟩ => show win0_2.index t (0 : Fin 2) * 448 + 1 * (y 0).val = (y 0).val; omega
  | ⟨1, _⟩ => show win0_2.index t (1 : Fin 2) * 128 + 1 * (y 1).val = (y 1).val; omega

theorem read3 (c : Dev nD) (t : Fin cfg0.N) : iblk m c 3 t = V m c main_arg3 := by
  funext y
  show V m c main_arg3 (((cfg0.win 3).blk t).view.emb y) = V m c main_arg3 y
  refine congrArg _ ?_
  obtain ⟨-, -, -, -, -, -, e0, -⟩ := idx_facts t
  funext a; apply Fin.ext
  match a with
  | ⟨0, _⟩ => show win0_3.index t (0 : Fin 1) * 128 + 1 * (y 0).val = (y 0).val; omega

theorem read4 (c : Dev nD) (t : Fin cfg0.N) : iblk m c 4 t = V m c main_arg4 := by
  funext y
  show V m c main_arg4 (((cfg0.win 4).blk t).view.emb y) = V m c main_arg4 y
  refine congrArg _ ?_
  obtain ⟨-, -, -, -, -, -, -, e0, e1, -⟩ := idx_facts t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem read5 (c : Dev nD) (t : Fin cfg0.N) : iblk m c 5 t = V m c main_arg5 := by
  funext y
  show V m c main_arg5 (((cfg0.win 5).blk t).view.emb y) = V m c main_arg5 y
  refine congrArg _ ?_
  obtain ⟨-, -, -, -, -, -, -, -, -, e0, -⟩ := idx_facts t
  funext a; apply Fin.ext
  match a with
  | ⟨0, _⟩ => show win0_5.index t (0 : Fin 1) * 128 + 1 * (y 0).val = (y 0).val; omega

theorem read6 (c : Dev nD) (t : Fin cfg0.N) : iblk m c 6 t = V m c main_arg6 := by
  funext y
  show V m c main_arg6 (((cfg0.win 6).blk t).view.emb y) = V m c main_arg6 y
  refine congrArg _ ?_
  obtain ⟨-, -, -, -, -, -, -, -, -, -, e0, e1, -⟩ := idx_facts t
  funext a; apply Fin.ext
  match a with
  | ⟨0, _⟩ => show win0_6.index t (0 : Fin 2) * 128 + 1 * (y 0).val = (y 0).val; omega
  | ⟨1, _⟩ => show win0_6.index t (1 : Fin 2) * 256 + 1 * (y 1).val = (y 1).val; omega

theorem read7 (c : Dev nD) (t : Fin cfg0.N) : iblk m c 7 t = V m c main_arg7 := by
  funext y
  show V m c main_arg7 (((cfg0.win 7).blk t).view.emb y) = V m c main_arg7 y
  refine congrArg _ ?_
  obtain ⟨-, -, -, -, -, -, -, -, -, -, -, -, e0, -⟩ := idx_facts t
  funext a; apply Fin.ext
  match a with
  | ⟨0, _⟩ => show win0_7.index t (0 : Fin 1) * 256 + 1 * (y 0).val = (y 0).val; omega

/-- The weights as the region finds them. -/
def wts (c : Dev nD) : Weights :=
  weightsOf (V m c main_arg2) (V m c main_arg3) (V m c main_arg4) (V m c main_arg5) (V m c main_arg6) (V m c main_arg7)

/-- Where result window 8's block places `(p, q)`. -/
theorem emb8 (t : Fin cfg0.N) (p : Fin 2048) (q : Fin 256) :
    ((cfg0.win 8).blk t).view.emb (ix2 p q) = (ix2 (row t p) q : S131072x256.Idx) := by
  obtain ⟨-, -, -, -, -, -, -, -, -, -, -, -, -, e0, e1, -⟩ := idx_facts t
  funext a; apply Fin.ext
  match a with
  | ⟨0, _⟩ => show win0_8.index t (0 : Fin 2) * 2048 + 1 * p.val = t.val * 2048 + p.val; omega
  | ⟨1, _⟩ => show win0_8.index t (1 : Fin 2) * 256 + 1 * q.val = q.val; omega

/-- Where result window 9's block places `(p, 0)`. -/
theorem emb9 (t : Fin cfg0.N) (p : Fin 2048) (z : Fin 1) :
    ((cfg0.win 9).blk t).view.emb (ix2 p z) = (ix2 (row t p) z : S131072x1.Idx) := by
  obtain ⟨-, -, -, -, -, -, -, -, -, -, -, -, -, -, -, e0, e1⟩ := idx_facts t
  funext a; apply Fin.ext
  match a with
  | ⟨0, _⟩ => show win0_9.index t (0 : Fin 2) * 2048 + 1 * p.val = t.val * 2048 + p.val; omega
  | ⟨1, _⟩ => show win0_9.index t (1 : Fin 2) * 1 + 1 * z.val = z.val; omega

/-- Row `p` of point `t`'s input block: the kept half of row `2048 t + p` of the regrouped array. -/
theorem keptRow_blk (c : Dev nD) (t : Fin cfg0.N) (p : Fin 2048) :
    keptRow (iblk m c 0 t) p = keptOf (V m c main_v2) (row t p) :=
  funext fun j => read0 m c t p _

/-- … and its moved half. -/
theorem movedRow_blk (c : Dev nD) (t : Fin cfg0.N) (p : Fin 2048) :
    movedRow (iblk m c 0 t) p = movedOf (V m c main_v2) (row t p) :=
  funext fun j => read0 m c t p _

/-- The conditioning row. -/
theorem condRow_blk (c : Dev nD) (t : Fin cfg0.N) (p : Fin 2048) :
    (fun q : Fin 320 => iblk m c 1 t (ix2 p q)) = fun q => V m c main_arg1 (ix2 (row t p) q) :=
  funext fun q => read1 m c t p q

/-- A column of 256 is in the left half or the right half. -/
theorem split_col (q : Fin 256) :
    (∃ j : Fin 128, q = (⟨j.val, Nat.lt_trans j.isLt (by decide)⟩ : Fin 256))
      ∨ (∃ j : Fin 128, q = (⟨128 + j.val, Nat.add_lt_add_left j.isLt 128⟩ : Fin 256)) := by
  by_cases hq : q.val < 128
  · exact Or.inl ⟨⟨q.val, hq⟩, rfl⟩
  · exact Or.inr ⟨⟨q.val - 128, by have := q.isLt; omega⟩, Fin.ext (by show q.val = 128 + (q.val - 128); omega)⟩

/-! ## What a point writes back -/

/-- Point `t` writes back block `t` of `G8` of the arrays the region finds. -/
theorem flushed8_eq (c : Dev nD) (t : Fin cfg0.N) :
    (dats m 0 c).flushed 8 t
      = ((cfg0.win 8).blk t).view.read (Elt Ideal) (G8 (wts m c) (V m c main_v2) (V m c main_arg1)) := by
  show (cfg0.win 8).cut (grid0.coords t) ((dats m 0 c).after 8 t) = _
  rw [after0_8]
  funext y
  obtain ⟨p, q, rfl⟩ : ∃ (p : Fin 2048) (q : Fin 256), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = G8 (wts m c) (V m c main_v2) (V m c main_arg1) (((cfg0.win 8).blk t).view.emb (ix2 p q))
  rw [emb8 t p q]
  rcases split_col q with ⟨j, rfl⟩ | ⟨j, rfl⟩
  · refine (out8_lo (iblk m c 0 t) (iblk m c 1 t) (iblk m c 2 t) (iblk m c 3 t) (iblk m c 4 t) (iblk m c 5 t) (iblk m c 6 t) (iblk m c 7 t) p j).trans ?_
    rw [G8_lo, keptRow_blk m c t p]
  · refine (out8_hi (iblk m c 0 t) (iblk m c 1 t) (iblk m c 2 t) (iblk m c 3 t) (iblk m c 4 t) (iblk m c 5 t) (iblk m c 6 t) (iblk m c 7 t) p j).trans ?_
    rw [G8_hi, keptRow_blk m c t p, movedRow_blk m c t p, condRow_blk m c t p, read2 m c t, read3 m c t, read4 m c t, read5 m c t,
      read6 m c t, read7 m c t]
    rfl

/-- Point `t` writes back block `t` of `G9` of the arrays the region finds. -/
theorem flushed9_eq (c : Dev nD) (t : Fin cfg0.N) :
    (dats m 0 c).flushed 9 t
      = ((cfg0.win 9).blk t).view.read (Elt Ideal) (G9 (wts m c) (V m c main_v2) (V m c main_arg1)) := by
  show (cfg0.win 9).cut (grid0.coords t) ((dats m 0 c).after 9 t) = _
  rw [after0_9]
  funext y
  obtain ⟨p, z, rfl⟩ : ∃ (p : Fin 2048) (z : Fin 1), y = ix2 p z := ⟨y 0, y 1, eq_ix2 y⟩
  obtain rfl : z = 0 := Subsingleton.elim _ _
  show out0_9 (iblk m c 0 t) (iblk m c 1 t) (iblk m c 2 t) (iblk m c 3 t) (iblk m c 4 t) (iblk m c 5 t) (iblk m c 6 t) (iblk m c 7 t) (ix2 p (0 : Fin 1))
    = G9 (wts m c) (V m c main_v2) (V m c main_arg1) (((cfg0.win 9).blk t).view.emb (ix2 p (0 : Fin 1)))
  rw [emb9 t p 0]
  refine (out9_apply (iblk m c 0 t) (iblk m c 1 t) (iblk m c 2 t) (iblk m c 3 t) (iblk m c 4 t) (iblk m c 5 t) (iblk m c 6 t) (iblk m c 7 t) p).trans ?_
  rw [G9_ix, keptRow_blk m c t p, condRow_blk m c t p, read2 m c t, read3 m c t, read4 m c t, read5 m c t, read6 m c t, read7 m c t]
  rfl

/-! ## The blocks tile the rows -/

/-- An index of the first result array is in point `t`'s block iff each coordinate is in the block's range. -/
theorem mem_blk8 (t : Fin cfg0.N) (i : S131072x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v3_0).slice (win0_8.rect t)).set ↔ _
  rw [View.set_slice_whole, Rect.mem_set_unit]
  exact Iff.rfl

/-- The same for the second result array. -/
theorem mem_blk9 (t : Fin cfg0.N) (i : S131072x1.Idx) :
    i ∈ ((cfg0.win 9).blk t).view.set ↔ ∀ a : Fin 2, win0_9.index t a * S2048x1.size a ≤ (i a).val
      ∧ (i a).val < win0_9.index t a * S2048x1.size a + S2048x1.size a := by
  show i ∈ ((View.whole main_v3_1).slice (win0_9.rect t)).set ↔ _
  rw [View.set_slice_whole, Rect.mem_set_unit]
  exact Iff.rfl

/-- Every index of the first result array is in the block of the point its row falls in. -/
theorem cover8 (i : S131072x256.Idx) :
    ∃ t : Fin cfg0.N, (cfg0.win 8).flush t = true ∧ i ∈ ((cfg0.win 8).blk t).view.set := by
  have hi0 : (i 0).val < 131072 := idx2_lt0 i
  have hi1 : (i 1).val < 256 := idx2_lt1 i
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, -, -, -, -, -, e0, e1, -⟩ := idx_facts t
  refine ⟨t, flush0_8 t, ?_⟩
  rw [mem_blk8]
  intro a
  match a with
  | ⟨0, _⟩ =>
    show win0_8.index t (0 : Fin 2) * 2048 ≤ (i 0).val ∧ (i 0).val < win0_8.index t (0 : Fin 2) * 2048 + 2048
    omega
  | ⟨1, _⟩ =>
    show win0_8.index t (1 : Fin 2) * 256 ≤ (i 1).val ∧ (i 1).val < win0_8.index t (1 : Fin 2) * 256 + 256
    omega

/-- Every index of the second result array is in the block of the point its row falls in. -/
theorem cover9 (i : S131072x1.Idx) :
    ∃ t : Fin cfg0.N, (cfg0.win 9).flush t = true ∧ i ∈ ((cfg0.win 9).blk t).view.set := by
  have hi0 : (i 0).val < 131072 := idx2_lt0 i
  have hi1 : (i 1).val < 1 := idx2_lt1 i
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 2048 ≤ (i 0).val ∧ (i 0).val < win0_9.index t (0 : Fin 2) * 2048 + 2048
    omega
  | ⟨1, _⟩ =>
    show win0_9.index t (1 : Fin 2) * 1 ≤ (i 1).val ∧ (i 1).val < win0_9.index t (1 : Fin 2) * 1 + 1
    omega

/-! ## The arrays after the region -/

/-- The first result array ends holding `G8` of the arrays the region finds. -/
theorem final8 (c : Dev nD) :
    (dats m 0 c).arrAt 8 cfg0.N = G8 (wts m c) (V m c main_v2) (V m c main_arg1) :=
  (dats m 0 c).arrAt_eq_of_cover 8 (G8 (wts m c) (V m c main_v2) (V m c main_arg1)) (fun t _ => flushed8_eq m c t) cover8

/-- The second result array ends holding `G9` of the arrays the region finds. -/
theorem final9 (c : Dev nD) :
    (dats m 0 c).arrAt 9 cfg0.N = G9 (wts m c) (V m c main_v2) (V m c main_arg1) :=
  (dats m 0 c).arrAt_eq_of_cover 9 (G9 (wts m c) (V m c main_v2) (V m c main_arg1)) (fun t _ => flushed9_eq m c t) cover9

end Cert.KernelIdeal.Arrays

end
-- ==== Proof.KernelTail.lean ====
/-
  The kernel program's host operations around its one region, named: the re-layout of the first argument that the
  region reads (its columns regrouped by parity), the inverse re-layout applied to the region's first result, and the
  one-column second result read as a vector; and the program's run restated over these names.
-/
import proofs.«137100_j65893388255721_2_alg».proof.Proof.Gen.KernelIdeal.Frame
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-- The columns of `x` regrouped by parity (all the even ones, then all the odd ones): what the region finds as
    its first input. -/
def regrouped (x : S131072x256.Idx → Elt F .f32) : S131072x256.Idx → Elt F .f32 :=
  shapeCast S131072x256 (transpose S131072x2x128 [0, 2, 1] (shapeCast S131072x128x2 x shapeCasts_S131072x256_S131072x128x2) transposes_S131072x128x2_S131072x2x128_0_2_1) shapeCasts_S131072x2x128_S131072x256

/-- The inverse re-layout, applied to the region's first result. -/
def restored (y : S131072x256.Idx → Elt F .f32) : S131072x256.Idx → Elt F .f32 :=
  shapeCast S131072x256 (transpose S131072x128x2 [0, 2, 1] (shapeCast S131072x2x128 y shapeCasts_S131072x256_S131072x2x128) transposes_S131072x2x128_S131072x128x2_0_2_1) shapeCasts_S131072x128x2_S131072x256

/-- The one-column second result as a vector. -/
def flattened (l : S131072x1.Idx → Elt F .f32) : S131072.Idx → Elt F .f32 := shapeCast S131072 l shapeCasts_S131072x1_S131072

/-- When the region is entered, the re-laid-out first argument's buffer holds the launched first argument regrouped. -/
theorem entry_v2 (c : Dev nD) : V m c main_v2 = regrouped (m ((c : Thread nD τ).loc main_arg0)) := by
  show StableHlo.after (List.flatten [hostOps0]) (fun b => m (c, b)) (Proc.devRef .tc main_v2) = _
  simp only [List.flatten_cons, List.flatten_nil, List.append_nil]
  after_results
  rfl

/-- What the lines after the region leave in the first result's buffer: the region's first output array restored. -/
theorem tail_v6 (c : Dev nD) :
    Pipeline.afterTail₀ cfgs (dats m) 0 (V0 m) [hostOps1] c main_v6 = restored ((dats m 0 c).arrAt 8 cfg0.N) := by
  have e : Pipeline.afterTail₀ cfgs (dats m) 0 (V0 m) [hostOps1] c main_v6
      = restored (Pipeline.withArrays spec0 c (V0 m c) (fun w => (dats m 0 c).arrAt w cfg0.N) (Proc.devRef .tc (Pipeline.arrRef spec0 8))) := by
    unfold Pipeline.afterTail₀
    show StableHlo.after (List.flatten [hostOps1]) _ (Proc.devRef .tc main_v6) = _
    simp only [List.flatten_cons, List.flatten_nil, List.append_nil]
    after_results
    rfl
  exact e.trans (congrArg restored (Pipeline.withArrays_arr spec0 launch0.win.arr_inj c _ _ 8))

/-- And in the second result's: the region's second output array flattened. -/
theorem tail_v7 (c : Dev nD) :
    Pipeline.afterTail₀ cfgs (dats m) 0 (V0 m) [hostOps1] c main_v7 = flattened ((dats m 0 c).arrAt 9 cfg0.N) := by
  have e : Pipeline.afterTail₀ cfgs (dats m) 0 (V0 m) [hostOps1] c main_v7
      = flattened (Pipeline.withArrays spec0 c (V0 m c) (fun w => (dats m 0 c).arrAt w cfg0.N) (Proc.devRef .tc (Pipeline.arrRef spec0 9))) := by
    unfold Pipeline.afterTail₀
    show StableHlo.after (List.flatten [hostOps1]) _ (Proc.devRef .tc main_v7) = _
    simp only [List.flatten_cons, List.flatten_nil, List.append_nil]
    after_results
    rfl
  exact e.trans (congrArg flattened (Pipeline.withArrays_arr spec0 launch0.win.arr_inj c _ _ 9))

/-- On every device, for any float values, from any memory with zero counters: every weakly fair execution of @main
    terminates with the first result the region's first output array restored, the second its second output array
    flattened, and the arguments unchanged. -/
theorem run_named : θ_run defs (onTc (τ := τ) (main (F := F))) ⟨m, fun _ => 0, ρ⟩ fun r => ∀ c : Dev nD,
      r.2.mem ((c.tc : Thread nD τ).loc main_v6) = restored ((dats m 0 c).arrAt 8 cfg0.N)
      ∧ r.2.mem ((c.tc : Thread nD τ).loc main_v7) = flattened ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v6 (Pipeline.mem_restRefs_of main_v6 (by decide) (by decide))).trans (tail_v6 m c),
      ((h c).2 main_v7 (Pipeline.mem_restRefs_of main_v7 (by decide) (by decide))).trans (tail_v7 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩) (run_main m ρ)

end Cert.KernelIdeal.Tail

end
-- ==== Proof.LibMergeTail.lean ====
/-
  Row-major re-layouts that merge or split the LAST two axes of a rank-3 array, each read at an index written by
  coordinates.

  * An `[a, b, c]` array seen as `[a, n]` with `n = b · c`: column `u · c + j` of row `p` is the operand's `(p, u, j)`.
  * The same the other way round: an `[a, n]` array seen as `[a, b, c]`.
-/
import Idealize.ShloMosaic.Lib.Pipeline.Value
import Idealize.ShloMosaic.Lib.ValueLayout
import Idealize.ShloMosaic.Lib.ValueIdx

noncomputable section

namespace Cert.MergeTail

open Idealize.ShloMosaic Idealize.ShloMosaic.ValueIdx

variable {α : Type}

/-- An `[a, b, c]` array re-laid as `[a, n]` reads, at row `p` and column `q = u · c + j`, the operand at `(p, u, j)`. -/
theorem shapeCast_abc_an_apply {a b c n : ℕ} (x : (⟨3, ![a, b, c]⟩ : Shape).Idx → α)
    (h : (⟨3, ![a, b, c]⟩ : Shape).ShapeCasts ⟨2, ![a, n]⟩) (hn : n = b * c) (p : Fin a) (q : Fin n) (u : Fin b) (j : Fin c)
    (hq : q.val = u.val * c + j.val) :
    shapeCast ⟨2, ![a, n]⟩ x h (ix2 p q) = x (ix3 p u j) :=
  shapeCast_apply x h _ _ (by
    rw [Shape.rowMajor_val_three, Shape.rowMajor_val_two]
    show (p.val * b + u.val) * c + j.val = p.val * n + q.val
    rw [hq, hn]; ring)

/-- An `[a, n]` array re-laid as `[a, b, c]` reads, at `(p, u, j)`, the operand's row `p` at column `q = u · c + j`. -/
theorem shapeCast_an_abc_apply {a b c n : ℕ} (x : (⟨2, ![a, n]⟩ : Shape).Idx → α)
    (h : (⟨2, ![a, n]⟩ : Shape).ShapeCasts ⟨3, ![a, b, c]⟩) (hn : n = b * c) (p : Fin a) (u : Fin b) (j : Fin c) (q : Fin n)
    (hq : q.val = u.val * c + j.val) :
    shapeCast ⟨3, ![a, b, c]⟩ x h (ix3 p u j) = x (ix2 p q) :=
  shapeCast_apply x h _ _ (by
    rw [Shape.rowMajor_val_three, Shape.rowMajor_val_two]
    show p.val * n + q.val = (p.val * b + u.val) * c + j.val
    rw [hq, hn]; ring)

end Cert.MergeTail

end
-- ==== Proof.Regroup.lean ====
/-
  Regrouping the columns of a matrix of 256 columns by parity, and back, each read at an index.

  Seeing a row of 256 entries as 128 pairs, exchanging the pair axis with the position-in-pair axis and flattening again
  puts the even-numbered entries in columns 0..127 and the odd-numbered ones in columns 128..255: column `u · 128 + j`
  of the result is column `2 j + u` of the source.  The same three steps with the two middle extents exchanged undo it:
  column `2 j + u` of the result is column `u · 128 + j` of the source.
-/
import proofs.«137100_j65893388255721_2_alg».proof.Proof.LibMergeTail
import Idealize.ShloMosaic.Lib.Pipeline.Value
import Idealize.ShloMosaic.Lib.ValueLayout
import Idealize.ShloMosaic.Lib.ValueIdx

noncomputable section

namespace Cert.Regroup

open Idealize.ShloMosaic Idealize.ShloMosaic.ValueIdx

variable {α : Type}

/-- Evens first, then odds: entry `(r, u · 128 + j)` of the regrouped matrix is entry `(r, 2 j + u)` of the source. -/
theorem byParity_apply {n : ℕ} (x : (⟨2, ![n, 256]⟩ : Shape).Idx → α)
    (h1 : (⟨2, ![n, 256]⟩ : Shape).ShapeCasts ⟨3, ![n, 128, 2]⟩)
    (h2 : (⟨3, ![n, 128, 2]⟩ : Shape).Transposes [0, 2, 1] ⟨3, ![n, 2, 128]⟩)
    (h3 : (⟨3, ![n, 2, 128]⟩ : Shape).ShapeCasts ⟨2, ![n, 256]⟩)
    (r : Fin n) (u : Fin 2) (j : Fin 128) (q q' : Fin 256) (hq : q.val = u.val * 128 + j.val) (hq' : q'.val = j.val * 2 + u.val) :
    shapeCast ⟨2, ![n, 256]⟩ (transpose ⟨3, ![n, 2, 128]⟩ [0, 2, 1] (shapeCast ⟨3, ![n, 128, 2]⟩ x h1) h2) h3 (ix2 r q)
      = x (ix2 r q') := by
  rw [Cert.MergeTail.shapeCast_abc_an_apply _ h3 rfl r q u j hq, transpose_ix3_021_apply _ h2 r u j,
    Cert.MergeTail.shapeCast_an_abc_apply x h1 rfl r j u q' hq']

/-- Back to the original order: entry `(r, 2 j + u)` of the result is entry `(r, u · 128 + j)` of the regrouped matrix. -/
theorem interleaved_apply {n : ℕ} (y : (⟨2, ![n, 256]⟩ : Shape).Idx → α)
    (h1 : (⟨2, ![n, 256]⟩ : Shape).ShapeCasts ⟨3, ![n, 2, 128]⟩)
    (h2 : (⟨3, ![n, 2, 128]⟩ : Shape).Transposes [0, 2, 1] ⟨3, ![n, 128, 2]⟩)
    (h3 : (⟨3, ![n, 128, 2]⟩ : Shape).ShapeCasts ⟨2, ![n, 256]⟩)
    (r : Fin n) (u : Fin 2) (j : Fin 128) (q q' : Fin 256) (hq : q.val = j.val * 2 + u.val) (hq' : q'.val = u.val * 128 + j.val) :
    shapeCast ⟨2, ![n, 256]⟩ (transpose ⟨3, ![n, 128, 2]⟩ [0, 2, 1] (shapeCast ⟨3, ![n, 2, 128]⟩ y h1) h2) h3 (ix2 r q)
      = y (ix2 r q') := by
  rw [Cert.MergeTail.shapeCast_abc_an_apply _ h3 rfl r q j u hq, transpose_ix3_021_apply _ h2 r j u,
    Cert.MergeTail.shapeCast_an_abc_apply y h1 rfl r u j q' hq']

end Cert.Regroup

end
-- ==== Proof.LibColumns.lean ====
/-
  Columns of a matrix, read at an index.

  Column `k` of an `[n, m]` array, cut out as an `[n, 1]` array and re-laid as a vector of length `n`, has at `p`
  the array's entry `(p, k)`.  An `[n, 16]` array assembled by joining sixteen `[n, 1]` arrays along the second axis
  has at `(p, q)` the `q`-th of them at `(p, 0)`.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- A one-column matrix re-laid as a vector: entry `p` is entry `(p, 0)`. -/
theorem shapeCast_uncol_apply {n : ℕ} (v : (⟨2, ![n, 1]⟩ : Shape).Idx → α) (h : (⟨2, ![n, 1]⟩ : Shape).ShapeCasts ⟨1, ![n]⟩) (p : Fin n) :
    shapeCast (⟨1, ![n]⟩ : Shape) v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

/-- Column `k` (at offset `o = k`) of an `[n, m]` array, cut out and re-laid as a vector: entry `p` is the array's `(p, k)`. -/
theorem column_apply {n m : ℕ} (o : ℕ) (k : Fin m) (hk : k.val = o) (X : (⟨2, ![n, m]⟩ : Shape).Idx → α)
    (hs : (⟨2, ![n, m]⟩ : Shape).Slices ![0, o] ⟨2, ![n, 1]⟩) (hc : (⟨2, ![n, 1]⟩ : Shape).ShapeCasts ⟨1, ![n]⟩) (p : Fin n) :
    shapeCast (⟨1, ![n]⟩ : Shape) (extractStridedSlice ⟨2, ![n, 1]⟩ ![0, o] X hs) hc (ix1 p) = X (ix2 p k) := by
  rw [shapeCast_uncol_apply]
  exact slice2_axis1_apply o X hs p (0 : Fin 1) k (by rw [hk]; rfl)

/-- Sixteen `[n, 1]` arrays joined along the second axis: entry `(p, q)` of the result is the `q`-th array at `(p, 0)`. -/
theorem concat16_columns_apply {n : ℕ} (f : Fin 16 → (⟨2, ![n, 1]⟩ : Shape).Idx → α)
    (h : Shape.Concatenates (([⟨⟨2, ![n, 1]⟩, f 0⟩, ⟨⟨2, ![n, 1]⟩, f 1⟩, ⟨⟨2, ![n, 1]⟩, f 2⟩, ⟨⟨2, ![n, 1]⟩, f 3⟩, ⟨⟨2, ![n, 1]⟩, f 4⟩,
      ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩, ⟨⟨2, ![n, 1]⟩, f 10⟩,
      ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] :
      List ((s : Shape) × (s.Idx → α))).map (·.1)) ⟨2, ![n, 16]⟩ (1 : Fin 2))
    (p : Fin n) (q : Fin 16) :
    concatenate (⟨2, ![n, 16]⟩ : Shape) (1 : Fin 2) [⟨⟨2, ![n, 1]⟩, f 0⟩, ⟨⟨2, ![n, 1]⟩, f 1⟩, ⟨⟨2, ![n, 1]⟩, f 2⟩, ⟨⟨2, ![n, 1]⟩, f 3⟩,
      ⟨⟨2, ![n, 1]⟩, f 4⟩, ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩,
      ⟨⟨2, ![n, 1]⟩, f 10⟩, ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] h (ix2 p q)
      = f q (ix2 p (0 : Fin 1)) :=
  concatenate_ofFn_unit_apply (t := ⟨2, ![n, 16]⟩) (s₁ := ⟨2, ![n, 1]⟩) (1 : Fin 2) f h rfl rfl (ix2 p q) q rfl (ix2 p (0 : Fin 1))
    (fun b hb => by
      match b with
      | ⟨0, _⟩ => rfl
      | ⟨1, _⟩ => exact absurd rfl hb)

end Cert.Layout

end
-- ==== Proof.KernelOrder.lean ====
/-
  Putting the region's regrouped results back in column order gives the specification's whole-array functions.

  The region works on the input with each row's even-numbered entries in columns 0..127 and its odd-numbered ones in
  columns 128..255, and writes its first result in the same order.  Read through that regrouping, a row's kept half is
  its even-numbered entries and its moved half its odd-numbered ones; interleaving the result's columns again puts the
  kept entry `j` in column `2 j` and the moved entry `j`, after the layer, in column `2 j + 1`: the specification's
  output row.  The one-column second result, read as a vector, is the rows' log-determinants.
-/
import proofs.«137100_j65893388255721_2_alg».proof.Proof.KernelTail
import proofs.«137100_j65893388255721_2_alg».proof.Proof.KernelGrid
import proofs.«137100_j65893388255721_2_alg».proof.Proof.Regroup
import proofs.«137100_j65893388255721_2_alg».proof.Proof.LibColumns

noncomputable section

namespace Cert.KernelIdeal.Order

open Cert.KernelIdeal Cert.KernelIdeal.Gen Cert.KernelIdeal.Tail Cert.Coupling Idealize.ShloMosaic Idealize.ShloMosaic.ValueIdx

/-- A row's kept half, read through the regrouping, is its even-numbered entries. -/
theorem keptOf_regrouped (x : S131072x256.Idx → Elt Ideal .f32) (r : Fin 131072) :
    keptOf (regrouped (F := Ideal) x) r = evens (fun q => x (ix2 r q)) := by
  funext j
  unfold keptOf evens regrouped
  exact Cert.Regroup.byParity_apply x shapeCasts_S131072x256_S131072x128x2 transposes_S131072x128x2_S131072x2x128_0_2_1
    shapeCasts_S131072x2x128_S131072x256 r (0 : Fin 2) j _ _ (by show j.val = 0 * 128 + j.val; omega) (by show 2 * j.val = j.val * 2 + 0; omega)

/-- A row's moved half, read through the regrouping, is its odd-numbered entries. -/
theorem movedOf_regrouped (x : S131072x256.Idx → Elt Ideal .f32) (r : Fin 131072) :
    movedOf (regrouped (F := Ideal) x) r = odds (fun q => x (ix2 r q)) := by
  funext j
  unfold movedOf odds regrouped
  exact Cert.Regroup.byParity_apply x shapeCasts_S131072x256_S131072x128x2 transposes_S131072x128x2_S131072x2x128_0_2_1
    shapeCasts_S131072x2x128_S131072x256 r (1 : Fin 2) j _ _ (by show 128 + j.val = 1 * 128 + j.val; omega) (by show 2 * j.val + 1 = j.val * 2 + 1; omega)

/-- The first result in regrouped order, its columns interleaved again, is the specification's output array. -/
theorem restored_G8 (w : Weights) (x : S131072x256.Idx → Elt Ideal .f32) (h : S131072x320.Idx → Elt Ideal .f32) :
    restored (F := Ideal) (G8 w (regrouped (F := Ideal) x) h) = Y w x h := by
  funext i
  obtain ⟨r, c, rfl⟩ : ∃ (r : Fin 131072) (c : Fin 256), i = ix2 r c := ⟨i 0, i 1, eq_ix2 i⟩
  rw [Y_ix2]
  have hc : c.val < 256 := c.isLt
  unfold restored
  by_cases hpar : c.val % 2 = 0
  · -- an even column `2 j`: the kept entry `j`, which is the row's entry `2 j`
    refine (Cert.Regroup.interleaved_apply (G8 w (regrouped (F := Ideal) x) h)
      shapeCasts_S131072x256_S131072x2x128 transposes_S131072x2x128_S131072x128x2_0_2_1 shapeCasts_S131072x128x2_S131072x256
      r (0 : Fin 2) (⟨c.val / 2, by omega⟩ : Fin 128) c (⟨c.val / 2, by omega⟩ : Fin 256)
      (by show c.val = c.val / 2 * 2 + 0; omega) (by show c.val / 2 = 0 * 128 + c.val / 2; omega)).trans ?_
    refine (G8_lo w _ h r (⟨c.val / 2, by omega⟩ : Fin 128)).trans ?_
    rw [keptOf_regrouped]
    unfold outAt
    rw [if_pos hpar]
    unfold evens
    exact congrArg (fun q => x (ix2 r q)) (Fin.ext (by show 2 * (c.val / 2) = c.val; omega))
  · -- an odd column `2 j + 1`: the moved entry `j` after the layer
    refine (Cert.Regroup.interleaved_apply (G8 w (regrouped (F := Ideal) x) h)
      shapeCasts_S131072x256_S131072x2x128 transposes_S131072x2x128_S131072x128x2_0_2_1 shapeCasts_S131072x128x2_S131072x256
      r (1 : Fin 2) (⟨c.val / 2, by omega⟩ : Fin 128) c (⟨128 + c.val / 2, by omega⟩ : Fin 256)
      (by show c.val = c.val / 2 * 2 + 1; omega) (by show 128 + c.val / 2 = 1 * 128 + c.val / 2; omega)).trans ?_
    refine (G8_hi w _ h r (⟨c.val / 2, by omega⟩ : Fin 128)).trans ?_
    rw [keptOf_regrouped, movedOf_regrouped]
    unfold outAt
    rw [if_neg hpar]

/-- The one-column second result, read as a vector, is the specification's log-determinants. -/
theorem flattened_G9 (w : Weights) (x : S131072x256.Idx → Elt Ideal .f32) (h : S131072x320.Idx → Elt Ideal .f32) :
    flattened (F := Ideal) (G9 w (regrouped (F := Ideal) x) h) = L w x h := by
  funext i
  obtain ⟨r, rfl⟩ : ∃ r : Fin 131072, i = ix1 r := ⟨i 0, eq_ix1 i⟩
  rw [L_ix1]
  unfold flattened
  refine (Cert.Layout.shapeCast_uncol_apply _ shapeCasts_S131072x1_S131072 r).trans ?_
  rw [G9_ix, keptOf_regrouped]

end Cert.KernelIdeal.Order

end
-- ==== Proof.KernelRun.lean ====
/-
  The kernel program's whole run at the ideal values: both results as the specification's functions of the
  arguments.

  The region finds `x` with its columns regrouped by parity and the other arguments as launched; it leaves its two
  result arrays at `G8` and `G9` of those; the lines after it put the first back in column order and flatten the
  second — which is `Y` and `L` of the arguments.
-/
import proofs.«137100_j65893388255721_2_alg».proof.Proof.KernelArrays
import proofs.«137100_j65893388255721_2_alg».proof.Proof.KernelTail
import proofs.«137100_j65893388255721_2_alg».proof.Proof.KernelOrder

noncomputable section

namespace Cert.KernelIdeal.Whole

open Cert.KernelIdeal Cert.KernelIdeal.Gen Cert.KernelIdeal.Arrays Cert.KernelIdeal.Tail Cert.KernelIdeal.Order Cert.Coupling
open Idealize.ShloMosaic Idealize.ShloMosaic.TcCoe Idealize.SL.Sem

variable (m : (ℓ : Loc nD τ sig) → Buf (Elt Ideal) ℓ) (ρ : Dev nD → PrngReg)

/-- The weights the region finds are the weight arguments as launched. -/
theorem wts_eq (c : Dev nD) : wts m c = (weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold wts
  rw [V_main_arg2 m c, V_main_arg3 m c, V_main_arg4 m c, V_main_arg5 m c, V_main_arg6 m c, V_main_arg7 m c]

/-- The first result, back in column order, is `Y` of the arguments. -/
theorem result0 (c : Dev nD) :
    restored ((dats m 0 c).arrAt 8 cfg0.N) = Y (weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) := by
  rw [final8 m c, wts_eq m c, entry_v2 m c, V_main_arg1 m c]
  exact restored_G8 _ _ _

/-- The second result, flattened, is `L` of the arguments. -/
theorem result1 (c : Dev nD) :
    flattened ((dats m 0 c).arrAt 9 cfg0.N) = L (weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) := by
  rw [final9 m c, wts_eq m c, entry_v2 m c, V_main_arg1 m c]
  exact flattened_G9 _ _ _

/-- Every weakly fair execution of the kernel program terminates with its results at `Y` and `L` of the arguments and
    the arguments unchanged. -/
theorem run : θ_run defs (onTc (τ := τ) (main (F := Ideal))) ⟨m, fun _ => 0, ρ⟩ fun r => ∀ c : Dev nD,
      r.2.mem ((c.tc : Thread nD τ).loc main_v6) = Y (weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1))
      ∧ r.2.mem ((c.tc : Thread nD τ).loc main_v7) = L (weightsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result0 m c), (h c).2.1.trans (result1 m c), (h c).2.2⟩)
    (run_named m ρ)

end Cert.KernelIdeal.Whole

end
-- ==== Proof.RefStages.lean ====
/-
  The reference's computation as a composition of named stages, each the host operation the program applies, at any
  float instance: the two column selections (the even and the odd columns of `x`, by constant tables of column
  numbers), the three dense layers, the scales and shifts cut from the last layer's output, the moved half, the
  row sums of the scales, and the output assembled by writing the kept and the moved halves back into their columns.
-/
import proofs.«137100_j65893388255721_2_alg».proof.Proof.Gen.ReferenceIdeal

noncomputable section

namespace Cert.ReferenceIdeal.Stages

open Cert.ReferenceIdeal Cert.ReferenceIdeal.Gen Idealize.ShloMosaic

variable {F : FTy → Type} [FloatOps F]

/-- A table of 128 column numbers as the `[128, 1]` array of start indices both the selection and the write-back read
    (a number that were negative would first have 256 added: none is). -/
def colIdx (lit : Fin 128 → BitVec 32) : (⟨S128x1, .i32⟩ : BufTy).Contents (Elt F) :=
  (broadcastInDim S128x1 ![0] bcast_S128_S128x1_0 : (⟨S128, .i32⟩ : BufTy).Contents (Elt F) → (⟨S128x1, .i32⟩ : BufTy).Contents (Elt F))
    ((select : (⟨S128, .i1⟩ : BufTy).Contents (Elt F) → (⟨S128, .i32⟩ : BufTy).Contents (Elt F) → (⟨S128, .i32⟩ : BufTy).Contents (Elt F) → (⟨S128, .i32⟩ : BufTy).Contents (Elt F))
      (constantI S128 1 0#1)
      ((addi : (⟨S128, .i32⟩ : BufTy).Contents (Elt F) → (⟨S128, .i32⟩ : BufTy).Contents (Elt F) → (⟨S128, .i32⟩ : BufTy).Contents (Elt F))
        (fun i => lit (S128.rowMajor i))
        ((broadcastInDim S128 ![] bcast_S_S128 : (⟨S_, .i32⟩ : BufTy).Contents (Elt F) → (⟨S128, .i32⟩ : BufTy).Contents (Elt F)) (constantI S_ 32 256#32)))
      (fun i => lit (S128.rowMajor i)))

/-- The columns of `x` a table names, side by side. -/
def cols (lit : Fin 128 → BitVec 32) (x : FVec F S131072x256 .f32) : FVec F S131072x128 .f32 :=
  Host.gather gather_S131072x256_S128x1_S131072x128_0_1_n_n_1_1_1310721 x (colIdx (F := F) lit)

/-- A bias of 128 entries repeated down the rows. -/
def bias128 (b : FVec F S128 .f32) : FVec F S131072x128 .f32 :=
  broadcastInDim S131072x128 ![0, 1] bcast_S1x128_S131072x128_0_1 (broadcastInDim S1x128 ![1] bcast_S128_S1x128_1 b)

/-- A bias of 256 entries repeated down the rows. -/
def bias256 (b : FVec F S256 .f32) : FVec F S131072x256 .f32 :=
  broadcastInDim S131072x256 ![0, 1] bcast_S1x256_S131072x256_0_1 (broadcastInDim S1x256 ![1] bcast_S256_S1x256_1 b)

/-- The rectifier: the larger of each entry and zero. -/
def rect (v : FVec F S131072x128 .f32) : FVec F S131072x128 .f32 :=
  maximumf v (broadcastInDim S131072x128 ![] bcast_S_S131072x128 (constant S_ .f32 0x00000000#32))

/-- The first layer on the kept columns joined to the conditioning rows. -/
def layer1 (kept : FVec F S131072x128 .f32) (h : FVec F S131072x320 .f32) (W1 : FVec F S448x128 .f32) (b1 : FVec F S128 .f32) :
    FVec F S131072x128 .f32 :=
  rect (addf (Host.dotGeneral dot_S131072x448_S448x128_S131072x128_1_0_0_1_n_n none
    (concatenate S131072x448 1 [⟨S131072x128, kept⟩, ⟨S131072x320, h⟩] concatenates_S131072x128_S131072x320_S131072x448_d1) W1) (bias128 b1))

/-- The second layer. -/
def layer2 (a : FVec F S131072x128 .f32) (W2 : FVec F S128x128 .f32) (b2 : FVec F S128 .f32) : FVec F S131072x128 .f32 :=
  rect (addf (Host.dotGeneral dot_S131072x128_S128x128_S131072x128_1_0_0_1_n_n none a W2) (bias128 b2))

/-- The third layer: 256 outputs per row, no rectifier. -/
def layer3 (a : FVec F S131072x128 .f32) (W3 : FVec F S128x256 .f32) (b3 : FVec F S256 .f32) : FVec F S131072x256 .f32 :=
  addf (Host.dotGeneral dot_S131072x128_S128x256_S131072x256_1_0_0_1_n_n none a W3) (bias256 b3)

/-- The network's outputs from the arguments. -/
def net (x : FVec F S131072x256 .f32) (h : FVec F S131072x320 .f32) (W1 : FVec F S448x128 .f32) (b1 : FVec F S128 .f32)
    (W2 : FVec F S128x128 .f32) (b2 : FVec F S128 .f32) (W3 : FVec F S128x256 .f32) (b3 : FVec F S256 .f32) : FVec F S131072x256 .f32 :=
  layer3 (layer2 (layer1 (cols lit0 x) h W1 b1) W2 b2) W3 b3

/-- The scales: `tanh` of the first 128 columns of the outputs. -/
def scales (st : FVec F S131072x256 .f32) : FVec F S131072x128 .f32 :=
  Host.tanh (extractStridedSlice S131072x128 ![0, 0] st slices_S131072x256_S131072x128_0_0)

/-- The shifts: the last 128 columns. -/
def shifts (st : FVec F S131072x256 .f32) : FVec F S131072x128 .f32 :=
  extractStridedSlice S131072x128 ![0, 128] st slices_S131072x256_S131072x128_0_128

/-- The moved columns after the layer. -/
def movedOut (odd : FVec F S131072x128 .f32) (st : FVec F S131072x256 .f32) : FVec F S131072x128 .f32 :=
  addf (mulf odd (Host.exp (scales st))) (shifts st)

/-- The rows' sums of scales, from zero. -/
def rowSums (st : FVec F S131072x256 .f32) : FVec F S131072 .f32 :=
  Host.reduceAdd (scales st) (constant S_ .f32 0x00000000#32) reducesTo_S131072x128_S131072_d1 h_S_

/-- Zeros, then the kept columns written at the even column numbers, then the moved ones at the odd. -/
def assemble (kept moved : FVec F S131072x128 .f32) : FVec F S131072x256 .f32 :=
  Host.scatter scatter_S131072x256_S128x1_S131072x128_0_1_1_1 (fun _ b => b)
    (Host.scatter scatter_S131072x256_S128x1_S131072x128_0_1_1_1 (fun _ b => b)
      (broadcastInDim S131072x256 ![] bcast_S_S131072x256 (constant S_ .f32 0x00000000#32)) (colIdx (F := F) lit0) kept)
    (colIdx (F := F) lit1) moved

/-- The reference's first result. -/
def outY (x : FVec F S131072x256 .f32) (h : FVec F S131072x320 .f32) (W1 : FVec F S448x128 .f32) (b1 : FVec F S128 .f32)
    (W2 : FVec F S128x128 .f32) (b2 : FVec F S128 .f32) (W3 : FVec F S128x256 .f32) (b3 : FVec F S256 .f32) : FVec F S131072x256 .f32 :=
  assemble (cols lit0 x) (movedOut (cols lit1 x) (net x h W1 b1 W2 b2 W3 b3))

/-- The reference's second result. -/
def outL (x : FVec F S131072x256 .f32) (h : FVec F S131072x320 .f32) (W1 : FVec F S448x128 .f32) (b1 : FVec F S128 .f32)
    (W2 : FVec F S128x128 .f32) (b2 : FVec F S128 .f32) (W3 : FVec F S128x256 .f32) (b3 : FVec F S256 .f32) : FVec F S131072 .f32 :=
  rowSums (net x h W1 b1 W2 b2 W3 b3)

end Cert.ReferenceIdeal.Stages

end
-- ==== Proof.RefRun.lean ====
/-
  The reference program's run: @main as the list of its host operations in order, the two calls of the rectifier
  written out at their call sites over each call's own buffers, and the theorem that every weakly fair execution
  terminates with the two result buffers at the named stages' terms of the argument arrays, the eight arguments
  unchanged.
-/
import proofs.«137100_j65893388255721_2_alg».proof.Proof.RefStages
import Idealize.ShloMosaic.Lib.StableHlo.Run

noncomputable section

namespace Cert.ReferenceIdeal.Value

open Cert.ReferenceIdeal Cert.ReferenceIdeal.Gen Cert.ReferenceIdeal.Stages Idealize.ShloMosaic Idealize.ShloMosaic.TcCoe Idealize.SL.Sem Idealize.ShloMosaic.StableHlo

variable {F : FTy → Type} [FloatOps F]

/-- @main's 59 operations, in order: its own fifty-three, and each call of the rectifier as the three of its
    body (the scalar zero, its broadcast, the maximum) over that call's buffers. -/
abbrev ops : List (HloOp τ sig (Elt F)) :=
  [ nullary main_c (fun i => lit0 (S128.rowMajor i)),
    nullary main_c_0 (constantI S128 1 0#1),
    nullary main_c_1 (fun i => lit1 (S128.rowMajor i)),
    nullary main_c_2 (constantI S128 1 0#1),
    nullary main_c_3 (constantI S128 1 0#1),
    nullary main_c_4 (constantI S128 1 0#1),
    nullary main_c_5 (constantI S_ 32 256#32),
    unary main_c_5 main_v0 (broadcastInDim S128 ![] bcast_S_S128 : (⟨S_, .i32⟩ : BufTy).Contents (Elt F) → (⟨S128, .i32⟩ : BufTy).Contents (Elt F)),
    binary main_c main_v0 main_v1 (addi : (⟨S128, .i32⟩ : BufTy).Contents (Elt F) → (⟨S128, .i32⟩ : BufTy).Contents (Elt F) → (⟨S128, .i32⟩ : BufTy).Contents (Elt F)),
    ternary main_c_0 main_v1 main_c main_v2 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v2 main_v3 (broadcastInDim S128x1 ![0] bcast_S128_S128x1_0 : (⟨S128, .i32⟩ : BufTy).Contents (Elt F) → (⟨S128x1, .i32⟩ : BufTy).Contents (Elt F)),
    binary main_arg0 main_v3 main_v4 ((fun x i => Host.gather gather_S131072x256_S128x1_S131072x128_0_1_n_n_1_1_1310721 x i) : (⟨S131072x256, .f32⟩ : BufTy).Contents (Elt F) → (⟨S128x1, .i32⟩ : BufTy).Contents (Elt F) → (⟨S131072x128, .f32⟩ : BufTy).Contents (Elt F)),
    nullary main_c_6 (constantI S_ 32 256#32),
    unary main_c_6 main_v5 (broadcastInDim S128 ![] bcast_S_S128 : (⟨S_, .i32⟩ : BufTy).Contents (Elt F) → (⟨S128, .i32⟩ : BufTy).Contents (Elt F)),
    binary main_c_1 main_v5 main_v6 (addi : (⟨S128, .i32⟩ : BufTy).Contents (Elt F) → (⟨S128, .i32⟩ : BufTy).Contents (Elt F) → (⟨S128, .i32⟩ : BufTy).Contents (Elt F)),
    ternary main_c_2 main_v6 main_c_1 main_v7 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v7 main_v8 (broadcastInDim S128x1 ![0] bcast_S128_S128x1_0 : (⟨S128, .i32⟩ : BufTy).Contents (Elt F) → (⟨S128x1, .i32⟩ : BufTy).Contents (Elt F)),
    binary main_arg0 main_v8 main_v9 ((fun x i => Host.gather gather_S131072x256_S128x1_S131072x128_0_1_n_n_1_1_1310721 x i) : (⟨S131072x256, .f32⟩ : BufTy).Contents (Elt F) → (⟨S128x1, .i32⟩ : BufTy).Contents (Elt F) → (⟨S131072x128, .f32⟩ : BufTy).Contents (Elt F)),
    binary main_v4 main_arg1 main_v10 ((fun a b => concatenate S131072x448 1 [⟨S131072x128, a⟩, ⟨S131072x320, b⟩] concatenates_S131072x128_S131072x320_S131072x448_d1) : (⟨S131072x128, .f32⟩ : BufTy).Contents (Elt F) → (⟨S131072x320, .f32⟩ : BufTy).Contents (Elt F) → (⟨S131072x448, .f32⟩ : BufTy).Contents (Elt F)),
    binary main_v10 main_arg2 main_v11 ((fun l r => Host.dotGeneral dot_S131072x448_S448x128_S131072x128_1_0_0_1_n_n none l r) : (⟨S131072x448, .f32⟩ : BufTy).Contents (Elt F) → (⟨S448x128, .f32⟩ : BufTy).Contents (Elt F) → (⟨S131072x128, .f32⟩ : BufTy).Contents (Elt F)),
    unary main_arg3 main_v12 (broadcastInDim S1x128 ![1] bcast_S128_S1x128_1 : (⟨S128, .f32⟩ : BufTy).Contents (Elt F) → (⟨S1x128, .f32⟩ : BufTy).Contents (Elt F)),
    unary main_v12 main_v13 (broadcastInDim S131072x128 ![0, 1] bcast_S1x128_S131072x128_0_1 : (⟨S1x128, .f32⟩ : BufTy).Contents (Elt F) → (⟨S131072x128, .f32⟩ : BufTy).Contents (Elt F)),
    binary main_v11 main_v13 main_v14 (addf : (⟨S131072x128, .f32⟩ : BufTy).Contents (Elt F) → (⟨S131072x128, .f32⟩ : BufTy).Contents (Elt F) → (⟨S131072x128, .f32⟩ : BufTy).Contents (Elt F)),
    TRef.nullary main_call0.cst (constant S_ .f32 0x00000000#32),
    TRef.unary main_call0.cst main_call0.v0 (broadcastInDim S131072x128 ![] bcast_S_S131072x128),
    TRef.binary (.of main_v14) main_call0.v0 main_call0.v1 maximumf,
    binary main_v15 main_arg4 main_v16 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    unary main_arg5 main_v17 (broadcastInDim S1x128 ![1] bcast_S128_S1x128_1 : (⟨S128, .f32⟩ : BufTy).Contents (Elt F) → (⟨S1x128, .f32⟩ : BufTy).Contents (Elt F)),
    unary main_v17 main_v18 (broadcastInDim S131072x128 ![0, 1] bcast_S1x128_S131072x128_0_1 : (⟨S1x128, .f32⟩ : BufTy).Contents (Elt F) → (⟨S131072x128, .f32⟩ : BufTy).Contents (Elt F)),
    binary main_v16 main_v18 main_v19 (addf : (⟨S131072x128, .f32⟩ : BufTy).Contents (Elt F) → (⟨S131072x128, .f32⟩ : BufTy).Contents (Elt F) → (⟨S131072x128, .f32⟩ : BufTy).Contents (Elt F)),
    TRef.nullary main_call1.cst (constant S_ .f32 0x00000000#32),
    TRef.unary main_call1.cst main_call1.v0 (broadcastInDim S131072x128 ![] bcast_S_S131072x128),
    TRef.binary (.of main_v19) main_call1.v0 main_call1.v1 maximumf,
    binary main_v20 main_arg6 main_v21 ((fun l r => Host.dotGeneral dot_S131072x128_S128x256_S131072x256_1_0_0_1_n_n none l r) : (⟨S131072x128, .f32⟩ : BufTy).Contents (Elt F) → (⟨S128x256, .f32⟩ : BufTy).Contents (Elt F) → (⟨S131072x256, .f32⟩ : BufTy).Contents (Elt F)),
    unary main_arg7 main_v22 (broadcastInDim S1x256 ![1] bcast_S256_S1x256_1 : (⟨S256, .f32⟩ : BufTy).Contents (Elt F) → (⟨S1x256, .f32⟩ : BufTy).Contents (Elt F)),
    unary main_v22 main_v23 (broadcastInDim S131072x256 ![0, 1] bcast_S1x256_S131072x256_0_1 : (⟨S1x256, .f32⟩ : BufTy).Contents (Elt F) → (⟨S131072x256, .f32⟩ : BufTy).Contents (Elt F)),
    binary main_v21 main_v23 main_v24 (addf : (⟨S131072x256, .f32⟩ : BufTy).Contents (Elt F) → (⟨S131072x256, .f32⟩ : BufTy).Contents (Elt F) → (⟨S131072x256, .f32⟩ : BufTy).Contents (Elt F)),
    unary main_v24 main_v25 ((extractStridedSlice S131072x128 ![0, 0] · slices_S131072x256_S131072x128_0_0) : (⟨S131072x256, .f32⟩ : BufTy).Contents (Elt F) → (⟨S131072x128, .f32⟩ : BufTy).Contents (Elt F)),
    unary main_v25 main_v26 (Host.tanh : (⟨S131072x128, .f32⟩ : BufTy).Contents (Elt F) → (⟨S131072x128, .f32⟩ : BufTy).Contents (Elt F)),
    unary main_v24 main_v27 ((extractStridedSlice S131072x128 ![0, 128] · slices_S131072x256_S131072x128_0_128) : (⟨S131072x256, .f32⟩ : BufTy).Contents (Elt F) → (⟨S131072x128, .f32⟩ : BufTy).Contents (Elt F)),
    unary main_v26 main_v28 (Host.exp : (⟨S131072x128, .f32⟩ : BufTy).Contents (Elt F) → (⟨S131072x128, .f32⟩ : BufTy).Contents (Elt F)),
    binary main_v9 main_v28 main_v29 (mulf : (⟨S131072x128, .f32⟩ : BufTy).Contents (Elt F) → (⟨S131072x128, .f32⟩ : BufTy).Contents (Elt F) → (⟨S131072x128, .f32⟩ : BufTy).Contents (Elt F)),
    binary main_v29 main_v27 main_v30 (addf : (⟨S131072x128, .f32⟩ : BufTy).Contents (Elt F) → (⟨S131072x128, .f32⟩ : BufTy).Contents (Elt F) → (⟨S131072x128, .f32⟩ : BufTy).Contents (Elt F)),
    nullary main_cst (constant S_ .f32 0x00000000#32),
    binary main_v26 main_cst main_v31 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_7 (constant S_ .f32 0x00000000#32),
    unary main_cst_7 main_v32 (broadcastInDim S131072x256 ![] bcast_S_S131072x256 : (⟨S_, .f32⟩ : BufTy).Contents (Elt F) → (⟨S131072x256, .f32⟩ : BufTy).Contents (Elt F)),
    nullary main_c_8 (constantI S_ 32 256#32),
    unary main_c_8 main_v33 (broadcastInDim S128 ![] bcast_S_S128 : (⟨S_, .i32⟩ : BufTy).Contents (Elt F) → (⟨S128, .i32⟩ : BufTy).Contents (Elt F)),
    binary main_c main_v33 main_v34 (addi : (⟨S128, .i32⟩ : BufTy).Contents (Elt F) → (⟨S128, .i32⟩ : BufTy).Contents (Elt F) → (⟨S128, .i32⟩ : BufTy).Contents (Elt F)),
    ternary main_c_3 main_v34 main_c main_v35 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v35 main_v36 (broadcastInDim S128x1 ![0] bcast_S128_S128x1_0 : (⟨S128, .i32⟩ : BufTy).Contents (Elt F) → (⟨S128x1, .i32⟩ : BufTy).Contents (Elt F)),
    ternary main_v32 main_v36 main_v4 main_v37 ((fun x i u => Host.scatter scatter_S131072x256_S128x1_S131072x128_0_1_1_1 (fun _ b => b) x i u) : (⟨S131072x256, .f32⟩ : BufTy).Contents (Elt F) → (⟨S128x1, .i32⟩ : BufTy).Contents (Elt F) → (⟨S131072x128, .f32⟩ : BufTy).Contents (Elt F) → (⟨S131072x256, .f32⟩ : BufTy).Contents (Elt F)),
    nullary main_c_9 (constantI S_ 32 256#32),
    unary main_c_9 main_v38 (broadcastInDim S128 ![] bcast_S_S128 : (⟨S_, .i32⟩ : BufTy).Contents (Elt F) → (⟨S128, .i32⟩ : BufTy).Contents (Elt F)),
    binary main_c_1 main_v38 main_v39 (addi : (⟨S128, .i32⟩ : BufTy).Contents (Elt F) → (⟨S128, .i32⟩ : BufTy).Contents (Elt F) → (⟨S128, .i32⟩ : BufTy).Contents (Elt F)),
    ternary main_c_4 main_v39 main_c_1 main_v40 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v40 main_v41 (broadcastInDim S128x1 ![0] bcast_S128_S128x1_0 : (⟨S128, .i32⟩ : BufTy).Contents (Elt F) → (⟨S128x1, .i32⟩ : BufTy).Contents (Elt F)),
    ternary main_v37 main_v41 main_v30 main_v42 ((fun x i u => Host.scatter scatter_S131072x256_S128x1_S131072x128_0_1_1_1 (fun _ b => b) x i u) : (⟨S131072x256, .f32⟩ : BufTy).Contents (Elt F) → (⟨S128x1, .i32⟩ : BufTy).Contents (Elt F) → (⟨S131072x128, .f32⟩ : BufTy).Contents (Elt F) → (⟨S131072x256, .f32⟩ : BufTy).Contents (Elt F)) ]

-- sixty binds re-associated, one level of recursion each
set_option maxRecDepth 1024 in
/-- @main is that straight line: the rectifier's definition unfolded at its two calls and the calls' records at
    their fields, both sides are one chain of steps once sequencing is reassociated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., unary_bufs_sub .., binary_bufs_sub .., ternary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., unary_bufs_sub .., unary_bufs_sub .., binary_bufs_sub ..,
    binary_bufs_sub .., nullary_bufs_sub .., binary_bufs_sub .., nullary_bufs_sub .., unary_bufs_sub .., nullary_bufs_sub ..,
    unary_bufs_sub .., binary_bufs_sub .., ternary_bufs_sub .., unary_bufs_sub .., ternary_bufs_sub .., nullary_bufs_sub ..,
    unary_bufs_sub .., binary_bufs_sub .., ternary_bufs_sub .., unary_bufs_sub .., ternary_bufs_sub ..⟩

attribute [local irreducible] Host.gather Host.scatter concatenate extractStridedSlice broadcastInDim in
/-- The fold at the first result buffer is the assembled output by computation: each operation's result rewritten
    at its own buffer, and what is left is the stages' composition unfolded. The selections, the write-backs, the
    joining, the slices and the broadcasts stay folded meanwhile: the equation never looks inside them. -/
theorem outY_eq (V : Valuation τ sig (Elt F)) :
    after ops V (main_v42 : DevRef τ sig) = outY (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

attribute [local irreducible] Host.gather Host.scatter concatenate extractStridedSlice broadcastInDim in
/-- The fold at the second result buffer is the rows' sums of the scales, likewise. -/
theorem outL_eq (V : Valuation τ sig (Elt F)) :
    after ops V (main_v31 : DevRef τ sig) = outL (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- On every device, for any float values, from any memory with zero counters: every weakly fair execution of
    @main terminates with each result at the stages' term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = outY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v31) = outL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v42).trans (outY_eq _), (h c main_v31).trans (outL_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Value

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibColumnPick.lean ====
import Idealize.ShloMosaic.Lib.Pipeline.Value
import Idealize.ShloMosaic.Lib.ValueIdx
noncomputable section
namespace Cert.ColumnPick
open Idealize.ShloMosaic Idealize.ShloMosaic.ValueIdx
variable {α : Type}

/-! # Columns of a matrix picked and written by a list of column numbers

For an `[n, C]` matrix and a `[k, 1]` array of column numbers: the gather that picks the listed columns, read at
`(r, j)`, is the matrix at row `r` and the `j`-th number clamped into range; the scatter that writes an `[n, k]` update
into the listed columns (each update replacing what was there), read at `(r, c)`, is the update's `(r, j)` when `c` is the
`j`-th number and the numbers are pairwise different, and the matrix's own element when no number is `c`. -/

/-! ## Columns picked by number -/

/-- COLUMNS PICKED BY NUMBER, READ AT `(r, j)`: the operand's row `r` at the `j`-th listed column number, read signed and
    clamped into `[0, C − 1]`. -/
theorem gather_cols_apply {n C k w : ℕ}
    (wf : GatherDims.WF ⟨2, ![n, C]⟩ ⟨2, ![k, 1]⟩ ⟨2, ![n, k]⟩ [0] [1] [] [1] [] 1 ![n, 1])
    (x : (⟨2, ![n, C]⟩ : Shape).Idx → α) (idx : IVec ⟨2, ![k, 1]⟩ w) (r : Fin n) (j : Fin k) (c : Fin C)
    (hc : c.val = min (idx (ix2 j (0 : Fin 1))).toInt.toNat (C - 1)) :
    Host.gather (⟨[0], [1], [], [], [1], 1, ![n, 1], wf⟩ : GatherDims ⟨2, ![n, C]⟩ ⟨2, ![k, 1]⟩ ⟨2, ![n, k]⟩) x idx (ix2 r j) = x (ix2 r c) := by
  unfold Host.gather
  congr 1
  funext a
  refine Fin.ext ?_
  have h01 : (0 : Fin 2) ∉ [(1 : Fin 2)] := by decide
  have h11 : (1 : Fin 2) ∈ [(1 : Fin 2)] := by decide
  match a with
  | ⟨0, _⟩ =>
    -- the row axis: no start component, no batching, the offset coordinate is the result's row
    show GatherDims.start _ (ix2 r j) idx 0 + GatherDims.batchCoord _ (ix2 r j) 0 + GatherDims.offCoord _ (ix2 r j) 0 = r.val
    rw [GatherDims.batchCoord_eq_zero _ _ _ List.not_mem_nil]
    unfold GatherDims.start GatherDims.offCoord
    rw [dif_neg h01, dif_pos ((GatherDims.mem_sKept _ _).2 ⟨h01, List.not_mem_nil⟩)]
    simp only [Nat.zero_add]
    rfl
  | ⟨1, _⟩ =>
    -- the column axis: collapsed, so only the clamped start, read at the start-indices index `(j, 0)`
    show GatherDims.start _ (ix2 r j) idx 1 + GatherDims.batchCoord _ (ix2 r j) 1 + GatherDims.offCoord _ (ix2 r j) 1 = c.val
    rw [GatherDims.batchCoord_eq_zero _ _ _ List.not_mem_nil,
      GatherDims.offCoord_eq_zero _ _ _ (fun h => ((GatherDims.mem_sKept _ _).mp h).1 h11)]
    simp only [Nat.add_zero]
    unfold GatherDims.start
    rw [dif_pos h11, hc]
    have hsi : GatherDims.siIdx (⟨[0], [1], [], [], [1], 1, ![n, 1], wf⟩ : GatherDims ⟨2, ![n, C]⟩ ⟨2, ![k, 1]⟩ ⟨2, ![n, k]⟩)
        (ix2 r j) ⟨List.idxOf (1 : Fin 2) [(1 : Fin 2)], List.idxOf_lt_length_iff.2 h11⟩ = ix2 j (0 : Fin 1) := by
      funext b; refine Fin.ext ?_
      match b with
      | ⟨0, _⟩ => rfl
      | ⟨1, _⟩ => rfl
    rw [hsi]
    rfl

/-! ## A run of point updates, read at one place -/

section Fold
variable {ι β γ : Type}

/-- A run of updates `step`, update `n` aimed at the place `R n` (when it names one): a place that no update in the run
    names keeps its starting element, when a step leaves alone every place it is not aimed at. -/
theorem foldl_keep (R : γ → Option ι) (step : (ι → β) → γ → ι → β) (i' : ι)
    (hkeep : ∀ r n, R n ≠ some i' → step r n i' = r i') :
    ∀ (L : List γ) (r0 : ι → β), (∀ n ∈ L, R n ≠ some i') → L.foldl step r0 i' = r0 i' := by
  intro L
  induction L with
  | nil => intro r0 _; rfl
  | cons a L ih =>
    intro r0 h
    rw [List.foldl_cons, ih _ fun n hn => h n (List.mem_cons_of_mem _ hn)]
    exact hkeep r0 a (h a (List.mem_cons_self ..))

/-- A place that exactly one update `n0` of a run without repeats names holds that update's value `v n0`, when a step
    aimed at a place leaves there its update's value whatever was there before. -/
theorem foldl_write (R : γ → Option ι) (step : (ι → β) → γ → ι → β) (v : γ → β) (i' : ι)
    (hkeep : ∀ r n, R n ≠ some i' → step r n i' = r i')
    (hwrite : ∀ r n, R n = some i' → step r n i' = v n) (n0 : γ) (h0 : R n0 = some i') :
    ∀ (L : List γ) (r0 : ι → β), L.Nodup → n0 ∈ L → (∀ n ∈ L, R n = some i' → n = n0) →
      L.foldl step r0 i' = v n0 := by
  intro L
  induction L with
  | nil => intro r0 _ hm; exact absurd hm List.not_mem_nil
  | cons a L ih =>
    intro r0 hnd hm huniq
    rw [List.foldl_cons]
    have hnd' := List.nodup_cons.1 hnd
    rcases List.mem_cons.1 hm with rfl | hmem
    · -- the first update is the one: the rest of the run does not name the place again
      rw [foldl_keep R step i' hkeep L _ fun n hn e => hnd'.1 (huniq n (List.mem_cons_of_mem _ hn) e ▸ hn)]
      exact hwrite r0 n0 h0
    · exact ih _ hnd'.2 hmem fun n hn => huniq n (List.mem_cons_of_mem _ hn)

end Fold

/-! ## Columns written by number -/

/-- Of two axes, dropping the second leaves the first. -/
theorem kept_two_one (sz : Fin 2 → ℕ) : (⟨2, sz⟩ : Shape).kept [1] = [0] := by
  show (List.finRange 2).filter (fun a => decide (a ∉ [(1 : Fin 2)])) = [0]
  decide

section Scatter
variable {n C k w : ℕ}

/-- The dimension numbers of "write whole columns at the listed column numbers": operand `[n, C]`, column numbers
    `[k, 1]`, updates `[n, k]`. -/
abbrev colsScatter (n C k : ℕ) (wf : ScatterDims.WF ⟨2, ![n, C]⟩ ⟨2, ![k, 1]⟩ ⟨2, ![n, k]⟩ [0] [1] [1] 1) :
    ScatterDims ⟨2, ![n, C]⟩ ⟨2, ![k, 1]⟩ ⟨2, ![n, k]⟩ := ⟨[0], [1], [1], 1, wf⟩

/-- Update `(r, j)` lands at `(r, pos j)` when the `j`-th column number is `pos j`. -/
theorem resultIdx_cols (wf : ScatterDims.WF ⟨2, ![n, C]⟩ ⟨2, ![k, 1]⟩ ⟨2, ![n, k]⟩ [0] [1] [1] 1)
    (idx : IVec ⟨2, ![k, 1]⟩ w) (pos : Fin k → Fin C)
    (hpos : ∀ j, (idx (ix2 j (0 : Fin 1))).toInt = ((pos j).val : ℤ)) (r : Fin n) (j : Fin k) :
    (colsScatter n C k wf).resultIdx? (ix2 r j) idx = some (ix2 r (pos j)) := by
  have h01 : (0 : Fin 2) ∉ [(1 : Fin 2)] := by decide
  have h10 : (1 : Fin 2) ∉ [(0 : Fin 2)] := by decide
  have h11 : (1 : Fin 2) ∈ [(1 : Fin 2)] := by decide
  have hk0 : (0 : Fin 2) ∈ (colsScatter n C k wf).sKept := by
    show (0 : Fin 2) ∈ Shape.kept (⟨2, ![n, C]⟩ : Shape) [1]
    rw [kept_two_one]; exact List.mem_singleton.2 rfl
  have hk1 : (1 : Fin 2) ∉ (colsScatter n C k wf).sKept := by
    show (1 : Fin 2) ∉ Shape.kept (⟨2, ![n, C]⟩ : Shape) [1]
    rw [kept_two_one]; exact h10
  -- the start: nothing on the row axis, the `j`-th column number on the column axis
  have hs0 : (colsScatter n C k wf).start (ix2 r j) idx 0 = 0 := by
    unfold ScatterDims.start; rw [dif_neg h01]
  have hs1 : (colsScatter n C k wf).start (ix2 r j) idx 1 = ((pos j).val : ℤ) := by
    unfold ScatterDims.start
    rw [dif_pos h11, ← hpos j]
    have hsi : (colsScatter n C k wf).siIdx (ix2 r j)
        ⟨List.idxOf (1 : Fin 2) [(1 : Fin 2)], List.idxOf_lt_length_iff.2 h11⟩ = ix2 j (0 : Fin 1) := by
      funext b; refine Fin.ext ?_
      match b with
      | ⟨0, _⟩ => rfl
      | ⟨1, _⟩ => rfl
    rw [hsi]
  -- the window: the update's row on the row axis, nothing on the inserted column axis
  have hw0 : (colsScatter n C k wf).window (ix2 r j) 0 = r.val := by
    unfold ScatterDims.window; rw [dif_pos hk0]; rfl
  have hw1 : (colsScatter n C k wf).window (ix2 r j) 1 = 0 := by
    unfold ScatterDims.window; rw [dif_neg hk1]
  have hall : ∀ a, 0 ≤ (colsScatter n C k wf).start (ix2 r j) idx a + (colsScatter n C k wf).window (ix2 r j) a ∧
      (colsScatter n C k wf).start (ix2 r j) idx a + (colsScatter n C k wf).window (ix2 r j) a
        < (⟨2, ![n, C]⟩ : Shape).size a := by
    intro a
    match a with
    | ⟨0, _⟩ =>
      show 0 ≤ (colsScatter n C k wf).start (ix2 r j) idx 0 + (((colsScatter n C k wf).window (ix2 r j) 0 : ℕ) : ℤ) ∧
        (colsScatter n C k wf).start (ix2 r j) idx 0 + (((colsScatter n C k wf).window (ix2 r j) 0 : ℕ) : ℤ) < ((n : ℕ) : ℤ)
      rw [hs0, hw0]; have := r.isLt; omega
    | ⟨1, _⟩ =>
      show 0 ≤ (colsScatter n C k wf).start (ix2 r j) idx 1 + (((colsScatter n C k wf).window (ix2 r j) 1 : ℕ) : ℤ) ∧
        (colsScatter n C k wf).start (ix2 r j) idx 1 + (((colsScatter n C k wf).window (ix2 r j) 1 : ℕ) : ℤ) < ((C : ℕ) : ℤ)
      rw [hs1, hw1]; have := (pos j).isLt; omega
  unfold ScatterDims.resultIdx?
  rw [dif_pos hall]
  congr 1
  funext a
  refine Fin.ext ?_
  match a with
  | ⟨0, _⟩ =>
    show ((colsScatter n C k wf).start (ix2 r j) idx 0 + (((colsScatter n C k wf).window (ix2 r j) 0 : ℕ) : ℤ)).toNat = r.val
    rw [hs0, hw0]; omega
  | ⟨1, _⟩ =>
    show ((colsScatter n C k wf).start (ix2 r j) idx 1 + (((colsScatter n C k wf).window (ix2 r j) 1 : ℕ) : ℤ)).toNat = (pos j).val
    rw [hs1, hw1]; omega

/-- COLUMNS WRITTEN BY NUMBER, READ AT A WRITTEN COLUMN: with pairwise different column numbers, place `(r, pos j)` holds
    update `(r, j)`. -/
theorem scatter_cols_hit
    (wf : ScatterDims.WF ⟨2, ![n, C]⟩ ⟨2, ![k, 1]⟩ ⟨2, ![n, k]⟩ [0] [1] [1] 1)
    (x : (⟨2, ![n, C]⟩ : Shape).Idx → α) (idx : IVec ⟨2, ![k, 1]⟩ w) (upd : (⟨2, ![n, k]⟩ : Shape).Idx → α)
    (pos : Fin k → Fin C) (hpos : ∀ j, (idx (ix2 j (0 : Fin 1))).toInt = ((pos j).val : ℤ)) (hinj : Function.Injective pos)
    (r : Fin n) (j : Fin k) :
    Host.scatter (⟨[0], [1], [1], 1, wf⟩ : ScatterDims ⟨2, ![n, C]⟩ ⟨2, ![k, 1]⟩ ⟨2, ![n, k]⟩) (fun _ b => b) x idx upd (ix2 r (pos j)) = upd (ix2 r j) := by
  show Host.scatter (colsScatter n C k wf) (fun _ b => b) x idx upd (ix2 r (pos j)) = upd (ix2 r j)
  unfold Host.scatter
  refine (foldl_write
    (fun m => (colsScatter n C k wf).resultIdx? ((⟨2, ![n, k]⟩ : Shape).rowMajor.symm m) idx) _
    (fun m => upd ((⟨2, ![n, k]⟩ : Shape).rowMajor.symm m)) (ix2 r (pos j)) ?_ ?_
    ((⟨2, ![n, k]⟩ : Shape).rowMajor (ix2 r j)) ?_
    (List.finRange _) x (List.nodup_finRange _) (List.mem_finRange _) ?_).trans
      (congrArg upd (Equiv.symm_apply_apply _ _))
  · -- a step leaves alone every place its update does not land at
    intro r0 m hne
    have hne' : (colsScatter n C k wf).resultIdx? ((⟨2, ![n, k]⟩ : Shape).rowMajor.symm m) idx ≠ some (ix2 r (pos j)) := hne
    dsimp only
    cases hR : (colsScatter n C k wf).resultIdx? ((⟨2, ![n, k]⟩ : Shape).rowMajor.symm m) idx with
    | none => rfl
    | some i => exact if_neg fun e => hne' (hR.trans (congrArg some e.symm))
  · -- a step whose update lands at the place leaves the update there
    intro r0 m he
    have he' : (colsScatter n C k wf).resultIdx? ((⟨2, ![n, k]⟩ : Shape).rowMajor.symm m) idx = some (ix2 r (pos j)) := he
    dsimp only
    rw [he']
    exact if_pos rfl
  · -- update number `rowMajor (r, j)` lands at `(r, pos j)`
    show (colsScatter n C k wf).resultIdx?
      ((⟨2, ![n, k]⟩ : Shape).rowMajor.symm ((⟨2, ![n, k]⟩ : Shape).rowMajor (ix2 r j))) idx = _
    rw [Equiv.symm_apply_apply]; exact resultIdx_cols wf idx pos hpos r j
  · -- and it is the only one that does: the column numbers are pairwise different
    intro m _ hm
    obtain ⟨y, rfl⟩ : ∃ y, m = (⟨2, ![n, k]⟩ : Shape).rowMajor y := ⟨_, (Equiv.apply_symm_apply _ m).symm⟩
    obtain ⟨a0, a1, rfl⟩ : ∃ (a0 : Fin n) (a1 : Fin k), y = ix2 a0 a1 := ⟨y 0, y 1, eq_ix2 y⟩
    have hm' : (colsScatter n C k wf).resultIdx?
        ((⟨2, ![n, k]⟩ : Shape).rowMajor.symm ((⟨2, ![n, k]⟩ : Shape).rowMajor (ix2 a0 a1))) idx
        = some (ix2 r (pos j)) := hm
    rw [Equiv.symm_apply_apply, resultIdx_cols wf idx pos hpos] at hm'
    have hm'' := Option.some.inj hm'
    have e0 : a0 = r := congrFun hm'' 0
    have e1 : pos a1 = pos j := congrFun hm'' 1
    rw [e0, hinj e1]

/-- COLUMNS WRITTEN BY NUMBER, READ AT AN UNWRITTEN COLUMN: a column no number names keeps the operand's. -/
theorem scatter_cols_miss
    (wf : ScatterDims.WF ⟨2, ![n, C]⟩ ⟨2, ![k, 1]⟩ ⟨2, ![n, k]⟩ [0] [1] [1] 1)
    (x : (⟨2, ![n, C]⟩ : Shape).Idx → α) (idx : IVec ⟨2, ![k, 1]⟩ w) (upd : (⟨2, ![n, k]⟩ : Shape).Idx → α)
    (pos : Fin k → Fin C) (hpos : ∀ j, (idx (ix2 j (0 : Fin 1))).toInt = ((pos j).val : ℤ))
    (r : Fin n) (c : Fin C) (hc : ∀ j, pos j ≠ c) :
    Host.scatter (⟨[0], [1], [1], 1, wf⟩ : ScatterDims ⟨2, ![n, C]⟩ ⟨2, ![k, 1]⟩ ⟨2, ![n, k]⟩) (fun _ b => b) x idx upd (ix2 r c) = x (ix2 r c) := by
  show Host.scatter (colsScatter n C k wf) (fun _ b => b) x idx upd (ix2 r c) = x (ix2 r c)
  unfold Host.scatter
  refine foldl_keep
    (fun m => (colsScatter n C k wf).resultIdx? ((⟨2, ![n, k]⟩ : Shape).rowMajor.symm m) idx) _ (ix2 r c)
    ?_ (List.finRange _) x ?_
  · -- a step leaves alone every place its update does not land at
    intro r0 m hne
    have hne' : (colsScatter n C k wf).resultIdx? ((⟨2, ![n, k]⟩ : Shape).rowMajor.symm m) idx ≠ some (ix2 r c) := hne
    dsimp only
    cases hR : (colsScatter n C k wf).resultIdx? ((⟨2, ![n, k]⟩ : Shape).rowMajor.symm m) idx with
    | none => rfl
    | some i => exact if_neg fun e => hne' (hR.trans (congrArg some e.symm))
  · -- every update lands in a listed column, and `c` is not one
    intro m _ hm
    obtain ⟨y, rfl⟩ : ∃ y, m = (⟨2, ![n, k]⟩ : Shape).rowMajor y := ⟨_, (Equiv.apply_symm_apply _ m).symm⟩
    obtain ⟨a0, a1, rfl⟩ : ∃ (a0 : Fin n) (a1 : Fin k), y = ix2 a0 a1 := ⟨y 0, y 1, eq_ix2 y⟩
    have hm' : (colsScatter n C k wf).resultIdx?
        ((⟨2, ![n, k]⟩ : Shape).rowMajor.symm ((⟨2, ![n, k]⟩ : Shape).rowMajor (ix2 a0 a1))) idx
        = some (ix2 r c) := hm
    rw [Equiv.symm_apply_apply, resultIdx_cols wf idx pos hpos] at hm'
    exact hc _ (congrFun (Option.some.inj hm') 1)

end Scatter

end Cert.ColumnPick
-- ==== Proof.RefRead.lean ====
/-
  The reference program's two results, read at an index, at the ideal values.

  Each stage of the reference is read at a row `r` and a column: the two column selections are the even- and the
  odd-numbered entries of row `r` of `x`; each dense layer — a product plus a bias row repeated down the rows — is the
  specification's dense layer on the row; the scales and the shifts are the two halves of the last layer's outputs; the
  assembled output holds at an even column the entry of `x` there and at the odd column `2 j + 1` the moved entry `j`;
  the row sums are the rows' log-determinants.
-/
import proofs.«137100_j65893388255721_2_alg».proof.Proof.RefStages
import proofs.«137100_j65893388255721_2_alg».proof.Proof.Spec
import proofs.«137100_j65893388255721_2_alg».proof.Proof.LibHostProduct
import proofs.«137100_j65893388255721_2_alg».proof.Proof.LibHostBroadcast
import proofs.«137100_j65893388255721_2_alg».proof.Proof.LibRankThree
import proofs.«137100_j65893388255721_2_alg».proof.Proof.LibColumnPick
import Idealize.ShloMosaic.Lib.ValueLayout
import Idealize.ShloMosaic.PureOps.Ideal.Laws

noncomputable section

open scoped BigOperators

namespace Cert.ReferenceIdeal.Read

open Cert.ReferenceIdeal Cert.ReferenceIdeal.Gen Cert.ReferenceIdeal.Stages Cert.Coupling Idealize.ShloMosaic Idealize.ShloMosaic.ValueIdx

/-! ## The tables of column numbers -/

/-- The `j`-th even column. -/
def evenPos (j : Fin 128) : Fin 256 := ⟨2 * j.val, by have := j.isLt; omega⟩

/-- The `j`-th odd column. -/
def oddPos (j : Fin 128) : Fin 256 := ⟨2 * j.val + 1, by have := j.isLt; omega⟩

theorem evenPos_injective : Function.Injective evenPos := fun a b e => by
  have := congrArg Fin.val e
  exact Fin.ext (by simp only [evenPos] at this; omega)

theorem oddPos_injective : Function.Injective oddPos := fun a b e => by
  have := congrArg Fin.val e
  exact Fin.ext (by simp only [oddPos] at this; omega)

/-- The first table lists the even numbers `0, 2, …, 254`. -/
theorem lit0_toInt : ∀ k : Fin 128, (lit0 k).toInt = ((2 * k.val : ℕ) : ℤ) := by decide

/-- The second table lists the odd numbers `1, 3, …, 255`. -/
theorem lit1_toInt : ∀ k : Fin 128, (lit1 k).toInt = ((2 * k.val + 1 : ℕ) : ℤ) := by decide

/-- The start indices built from a table hold, at `(k, 0)`, the table's entry `k`: the selection on the constant-false
    mask takes the table itself. -/
theorem colIdx_apply (lit : Fin 128 → BitVec 32) (k : Fin 128) :
    colIdx (F := Ideal) lit (ix2 k (0 : Fin 1)) = lit k := by
  unfold colIdx
  rw [Cert.HostBroadcast.col_one_apply, select_apply]
  show Scalar.select 0#1 _ _ = _
  rw [select_zero]
  refine congrArg lit (Fin.ext ?_)
  rw [Shape.rowMajor_val_one]

theorem colIdx_even (j : Fin 128) :
    (colIdx (F := Ideal) lit0 (ix2 j (0 : Fin 1))).toInt = (((evenPos j).val : ℕ) : ℤ) := by
  rw [colIdx_apply, lit0_toInt]; rfl

theorem colIdx_odd (j : Fin 128) :
    (colIdx (F := Ideal) lit1 (ix2 j (0 : Fin 1))).toInt = (((oddPos j).val : ℕ) : ℤ) := by
  rw [colIdx_apply, lit1_toInt]; rfl

/-! ## The two column selections -/

/-- The first selection at `(r, j)`: the entry of `x` in row `r` at the `j`-th even column. -/
theorem cols_even (x : FVec Ideal S131072x256 .f32) (r : Fin 131072) (j : Fin 128) :
    cols (F := Ideal) lit0 x (ix2 r j) = x (ix2 r (evenPos j)) := by
  unfold cols
  refine Cert.ColumnPick.gather_cols_apply (n := 131072) (C := 256) (k := 128)
    gather_S131072x256_S128x1_S131072x128_0_1_n_n_1_1_1310721_wf x (colIdx (F := Ideal) lit0) r j (evenPos j) ?_
  rw [colIdx_even]
  have := (evenPos j).isLt
  omega

/-- The second selection at `(r, j)`: the entry of `x` in row `r` at the `j`-th odd column. -/
theorem cols_odd (x : FVec Ideal S131072x256 .f32) (r : Fin 131072) (j : Fin 128) :
    cols (F := Ideal) lit1 x (ix2 r j) = x (ix2 r (oddPos j)) := by
  unfold cols
  refine Cert.ColumnPick.gather_cols_apply (n := 131072) (C := 256) (k := 128)
    gather_S131072x256_S128x1_S131072x128_0_1_n_n_1_1_1310721_wf x (colIdx (F := Ideal) lit1) r j (oddPos j) ?_
  rw [colIdx_odd]
  have := (oddPos j).isLt
  omega

/-! ## The dense layers -/

/-- One dense layer as the reference writes it, at row `r` and output `j`: the row of `A` through the layer. -/
theorem dense_apply {k n : ℕ} (w : DotDims.WF ⟨2, ![131072, k]⟩ ⟨2, ![k, n]⟩ ⟨2, ![131072, n]⟩ [1] [0] [0] [1] [] [])
    (A : FVec Ideal ⟨2, ![131072, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![131072, n]⟩ ![0, 1]) (r : Fin 131072) (j : Fin n) :
    addf (Host.dotGeneral (⟨[1], [0], [0], [1], [], [], w⟩ : DotDims _ _ _) none A W)
        (broadcastInDim ⟨2, ![131072, n]⟩ ![0, 1] h2 (broadcastInDim ⟨2, ![1, n]⟩ ![1] h1 b)) (ix2 r j)
      = dense (fun c => A (ix2 r c)) (fun c j => W (ix2 c j)) (fun j => b (ix1 j)) j := by
  show Host.dotGeneral (⟨[1], [0], [0], [1], [], [], w⟩ : DotDims _ _ _) none A W (ix2 r j)
    + broadcastInDim ⟨2, ![131072, n]⟩ ![0, 1] h2 (broadcastInDim ⟨2, ![1, n]⟩ ![1] h1 b) (ix2 r j) = _
  rw [Cert.HostProduct.dotGeneral_nn_apply, Cert.HostBroadcast.row_apply]
  rfl

/-- The rectifier as the reference writes it: the larger of the entry and zero. -/
theorem rect_apply (v : FVec Ideal S131072x128 .f32) (r : Fin 131072) (j : Fin 128) :
    rect (F := Ideal) v (ix2 r j) = max (v (ix2 r j)) 0 := by
  unfold rect
  show max (v (ix2 r j)) (broadcastInDim S131072x128 ![] bcast_S_S131072x128 (constant (F := Ideal) S_ .f32 0x00000000#32) (ix2 r j)) = _
  rw [Cert.HostBroadcast.scalar_apply, constant_apply, Ideal.ofBits_zero_f32]

/-- The kept columns joined to the conditioning rows, at row `r`: the specification's joined row. -/
theorem join_apply (a : FVec Ideal S131072x128 .f32) (h : FVec Ideal S131072x320 .f32) (r : Fin 131072) (k : Fin 448) :
    concatenate S131072x448 1 [⟨S131072x128, a⟩, ⟨S131072x320, h⟩] concatenates_S131072x128_S131072x320_S131072x448_d1 (ix2 r k)
      = joined (fun j => a (ix2 r j)) (fun j => h (ix2 r j)) k := by
  rw [Cert.RankThree.concatenate2_axis1_apply a h concatenates_S131072x128_S131072x320_S131072x448_d1 rfl r k]
  rfl

/-- The last layer's outputs (all 256 of them) at row `r`: the network on the row's even entries and conditioning row. -/
theorem net_apply (x : FVec Ideal S131072x256 .f32) (h : FVec Ideal S131072x320 .f32) (W1 : FVec Ideal S448x128 .f32)
    (b1 : FVec Ideal S128 .f32) (W2 : FVec Ideal S128x128 .f32) (b2 : FVec Ideal S128 .f32) (W3 : FVec Ideal S128x256 .f32)
    (b3 : FVec Ideal S256 .f32) (r : Fin 131072) (q : Fin 256) :
    Stages.net (F := Ideal) x h W1 b1 W2 b2 W3 b3 (ix2 r q)
      = Coupling.net (weightsOf W1 b1 W2 b2 W3 b3) (evens fun c => x (ix2 r c)) (fun c => h (ix2 r c)) q := by
  unfold Stages.net layer3 layer2 layer1 bias128 bias256
  refine (dense_apply _ _ _ _ _ _ r q).trans ?_
  refine congrArg (fun v => dense v _ _ q) (funext fun c2 => ?_)
  refine (rect_apply _ r c2).trans ?_
  refine congrArg (fun t => max t 0) ?_
  refine (dense_apply _ _ _ _ _ _ r c2).trans ?_
  refine congrArg (fun v => dense v _ _ c2) (funext fun c1 => ?_)
  refine (rect_apply _ r c1).trans ?_
  refine congrArg (fun t => max t 0) ?_
  refine (dense_apply _ _ _ _ _ _ r c1).trans ?_
  refine congrArg (fun v => dense v _ _ c1) (funext fun c0 => ?_)
  refine (join_apply _ _ r c0).trans ?_
  exact congrArg (fun a => joined a _ c0) (funext fun j => cols_even x r j)

/-! ## Scales, shifts, the moved half and the row sums -/

/-- The scales at `(r, j)`: `tanh` of the stage's column `j`. -/
theorem scales_apply (st : FVec Ideal S131072x256 .f32) (r : Fin 131072) (j : Fin 128) :
    scales (F := Ideal) st (ix2 r j) = Ideal.tanh (st (ix2 r (⟨j.val, by have := j.isLt; omega⟩ : Fin 256))) := by
  unfold scales
  show Ideal.tanh (extractStridedSlice S131072x128 ![0, 0] st slices_S131072x256_S131072x128_0_0 (ix2 r j)) = _
  rw [slice2_axis1_apply 0 _ _ r j (⟨j.val, by have := j.isLt; omega⟩ : Fin 256) (by show j.val = 0 + j.val; omega)]

/-- The shifts at `(r, j)`: the stage's column `128 + j`. -/
theorem shifts_apply (st : FVec Ideal S131072x256 .f32) (r : Fin 131072) (j : Fin 128) :
    shifts (F := Ideal) st (ix2 r j) = st (ix2 r (⟨128 + j.val, by have := j.isLt; omega⟩ : Fin 256)) := by
  unfold shifts
  exact slice2_axis1_apply 128 _ _ r j (⟨128 + j.val, by have := j.isLt; omega⟩ : Fin 256) rfl

/-- The moved half after the layer, at `(r, j)`: `o · exp (scale) + shift`. -/
theorem moved_apply (x : FVec Ideal S131072x256 .f32) (h : FVec Ideal S131072x320 .f32) (W1 : FVec Ideal S448x128 .f32)
    (b1 : FVec Ideal S128 .f32) (W2 : FVec Ideal S128x128 .f32) (b2 : FVec Ideal S128 .f32) (W3 : FVec Ideal S128x256 .f32)
    (b3 : FVec Ideal S256 .f32) (r : Fin 131072) (j : Fin 128) :
    movedOut (F := Ideal) (cols lit1 x) (Stages.net x h W1 b1 W2 b2 W3 b3) (ix2 r j)
      = moved (weightsOf W1 b1 W2 b2 W3 b3) (odds fun c => x (ix2 r c)) (evens fun c => x (ix2 r c)) (fun c => h (ix2 r c)) j := by
  unfold movedOut
  show cols (F := Ideal) lit1 x (ix2 r j) * Ideal.exp (scales (F := Ideal) (Stages.net x h W1 b1 W2 b2 W3 b3) (ix2 r j))
    + shifts (F := Ideal) (Stages.net x h W1 b1 W2 b2 W3 b3) (ix2 r j) = _
  rw [cols_odd, scales_apply, shifts_apply, net_apply, net_apply]
  rfl

/-- Inserting coordinate `k` on the second axis of the one-coordinate index `r` gives `(r, k)`. -/
theorem lift_row (hr : Shape.Reduces S131072x128 [1] S131072) (r : Fin 131072) (k : Fin 128) :
    hr.lift (ix1 r) k = ix2 r k :=
  funext fun ax => Fin.ext (by match ax with | ⟨0, _⟩ => rfl | ⟨1, _⟩ => rfl)

/-- The row sums at `r`: the sum of the row's scales. -/
theorem rowSums_apply (st : FVec Ideal S131072x256 .f32) (r : Fin 131072) :
    rowSums (F := Ideal) st (ix1 r) = ∑ j : Fin 128, scales (F := Ideal) st (ix2 r j) := by
  have hr : Shape.Reduces S131072x128 [1] S131072 := by decide
  unfold rowSums Host.reduceAdd
  show Ideal.hostReduceAdd reducesTo_S131072x128_S131072_d1 (scales (F := Ideal) st)
    (constant (F := Ideal) S_ .f32 0x00000000#32 (Shape.Idx.first h_S_)) (ix1 r) = _
  rw [Ideal.hostReduceAdd_single reducesTo_S131072x128_S131072_d1 hr, constant_apply, Ideal.ofBits_zero_f32, zero_add]
  exact Finset.sum_congr rfl fun k _ => congrArg (scales (F := Ideal) st) (lift_row hr r k)

/-! ## The assembled output -/

/-- The assembled output at an even column: the kept entry. -/
theorem assemble_even (kept moved : FVec Ideal S131072x128 .f32) (r : Fin 131072) (j : Fin 128) :
    assemble (F := Ideal) kept moved (ix2 r (evenPos j)) = kept (ix2 r j) := by
  unfold assemble
  refine (Cert.ColumnPick.scatter_cols_miss (n := 131072) (C := 256) (k := 128)
    scatter_S131072x256_S128x1_S131072x128_0_1_1_1_wf _ (colIdx (F := Ideal) lit1) moved oddPos colIdx_odd r (evenPos j)
    fun j' e => ?_).trans ?_
  · have := congrArg Fin.val e
    simp only [evenPos, oddPos] at this
    omega
  · exact Cert.ColumnPick.scatter_cols_hit (n := 131072) (C := 256) (k := 128)
      scatter_S131072x256_S128x1_S131072x128_0_1_1_1_wf _ (colIdx (F := Ideal) lit0) kept evenPos colIdx_even
      evenPos_injective r j

/-- The assembled output at an odd column: the moved entry. -/
theorem assemble_odd (kept moved : FVec Ideal S131072x128 .f32) (r : Fin 131072) (j : Fin 128) :
    assemble (F := Ideal) kept moved (ix2 r (oddPos j)) = moved (ix2 r j) := by
  unfold assemble
  exact Cert.ColumnPick.scatter_cols_hit (n := 131072) (C := 256) (k := 128)
    scatter_S131072x256_S128x1_S131072x128_0_1_1_1_wf _ (colIdx (F := Ideal) lit1) moved oddPos colIdx_odd
    oddPos_injective r j

/-! ## The two results -/

/-- The reference's first result is the specification's output array. -/
theorem outY_eq (x : FVec Ideal S131072x256 .f32) (h : FVec Ideal S131072x320 .f32) (W1 : FVec Ideal S448x128 .f32) (b1 : FVec Ideal S128 .f32)
    (W2 : FVec Ideal S128x128 .f32) (b2 : FVec Ideal S128 .f32) (W3 : FVec Ideal S128x256 .f32) (b3 : FVec Ideal S256 .f32) :
    outY (F := Ideal) x h W1 b1 W2 b2 W3 b3 = Y (weightsOf W1 b1 W2 b2 W3 b3) x h := by
  funext i
  obtain ⟨r, c, rfl⟩ : ∃ (r : Fin 131072) (c : Fin 256), i = ix2 r c := ⟨i 0, i 1, eq_ix2 i⟩
  rw [Y_ix2]
  unfold outAt outY
  by_cases hpar : c.val % 2 = 0
  · -- an even column keeps the entry of `x`
    obtain ⟨j, rfl⟩ : ∃ j : Fin 128, c = evenPos j :=
      ⟨⟨c.val / 2, by have := c.isLt; omega⟩, Fin.ext (by show c.val = 2 * (c.val / 2); omega)⟩
    rw [if_pos hpar]
    exact (assemble_even _ _ r j).trans (cols_even x r j)
  · -- the odd column `2 j + 1` holds the moved entry `j`
    obtain ⟨j, rfl⟩ : ∃ j : Fin 128, c = oddPos j :=
      ⟨⟨c.val / 2, by have := c.isLt; omega⟩, Fin.ext (by show c.val = 2 * (c.val / 2) + 1; omega)⟩
    rw [if_neg hpar]
    refine (assemble_odd _ _ r j).trans ((moved_apply x h W1 b1 W2 b2 W3 b3 r j).trans ?_)
    refine congrArg (moved _ _ _ _) (Fin.ext ?_)
    show j.val = (2 * j.val + 1) / 2
    omega

/-- The reference's second result is the specification's log-determinants. -/
theorem outL_eq (x : FVec Ideal S131072x256 .f32) (h : FVec Ideal S131072x320 .f32) (W1 : FVec Ideal S448x128 .f32) (b1 : FVec Ideal S128 .f32)
    (W2 : FVec Ideal S128x128 .f32) (b2 : FVec Ideal S128 .f32) (W3 : FVec Ideal S128x256 .f32) (b3 : FVec Ideal S256 .f32) :
    outL (F := Ideal) x h W1 b1 W2 b2 W3 b3 = L (weightsOf W1 b1 W2 b2 W3 b3) x h := by
  funext i
  obtain ⟨r, rfl⟩ : ∃ r : Fin 131072, i = ix1 r := ⟨i 0, eq_ix1 i⟩
  rw [L_ix1]
  unfold outL logdet
  refine (rowSums_apply _ r).trans (Finset.sum_congr rfl fun j _ => ?_)
  rw [scales_apply, net_apply]
  rfl

end Cert.ReferenceIdeal.Read

end
-- ==== Proof.lean ====
/-
  An affine coupling layer computed two ways: a kernel that works on 64 blocks of 2048 rows with the columns of `x`
  first regrouped by parity, and a reference that selects the even and the odd columns by constant tables, runs the
  same three dense layers, and writes the two halves back into their columns.

  At the ideal values (extended reals, exact operations, format changes the identity) both compute, for every row,
  the same function of the arguments: the even-numbered entries pass through, the odd-numbered entry `o` becomes
  `o · exp (tanh (first half of the network's outputs)) + (second half)`, and the second result is the sum of the 128
  `tanh` values.  The kernel's matrix products into a zero accumulator and the reference's products are the same exact
  sums, the kernel's lane sum and the reference's row sum from zero the same sum, and neither side reorders
  anything, so no finiteness of the inputs is used.  The frames of the two kernel programs are the generated ones;
  the reference's frame is its run with the results dropped; the idealization changed nothing, so there is nothing
  to preserve.
-/
import proofs.«137100_j65893388255721_2_alg».proof.Defs
import proofs.«137100_j65893388255721_2_alg».proof.Proof.Gen.Kernel
import proofs.«137100_j65893388255721_2_alg».proof.Proof.Gen.Kernel.Skeleton
import proofs.«137100_j65893388255721_2_alg».proof.Proof.Gen.Kernel.Launch
import proofs.«137100_j65893388255721_2_alg».proof.Proof.Gen.Kernel.Points
import proofs.«137100_j65893388255721_2_alg».proof.Proof.Gen.Kernel.Frame
import proofs.«137100_j65893388255721_2_alg».proof.Proof.Gen.KernelIdeal
import proofs.«137100_j65893388255721_2_alg».proof.Proof.Gen.KernelIdeal.Skeleton
import proofs.«137100_j65893388255721_2_alg».proof.Proof.Gen.KernelIdeal.Launch
import proofs.«137100_j65893388255721_2_alg».proof.Proof.Gen.KernelIdeal.Points
import proofs.«137100_j65893388255721_2_alg».proof.Proof.Gen.KernelIdeal.Frame
import proofs.«137100_j65893388255721_2_alg».proof.Proof.Gen.ReferenceIdeal
import proofs.«137100_j65893388255721_2_alg».proof.Proof.Gen.Pre_finite_inputs
import proofs.«137100_j65893388255721_2_alg».proof.Proof.KernelRun
import proofs.«137100_j65893388255721_2_alg».proof.Proof.RefRun
import proofs.«137100_j65893388255721_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization recorded no rewrite. -/
theorem preserves : Cert.preserves_Kernel_KernelIdeal := trivial

/-- Both programs end at `Y` and `L` of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.outY_eq, a0, a1, a2, a3, a4, a5, a6, a7]
  · obtain ⟨a0, a1, a2, a3, a4, a5, a6, a7⟩ := hagree c
    rw [Cert.ReferenceIdeal.Read.outL_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
